-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x12544 : Shape := ⟨2, ![8192, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S_ : Shape := ⟨0, ![]⟩

class Facts : Prop where
  bcast_S_S8192x12544 : S_.BroadcastsInDim S8192x12544 (![] : Fin 0 → Fin S8192x12544.rank)
  reducesTo_S8192x12544_S_d0_1 : S8192x12544.ReducesTo [0, 1] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x12 : S_.BroadcastsInDim S1024x12 (![] : Fin 0 → Fin S1024x12.rank)
  reducesTo_S1024x12_S_d0_1 : S1024x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S1024x12 .f32) (main_arg8 : FVec F S12 .f32) (main_v33 : IVec S_ 1) : IVec S_ 1 :=
  let main_v34 : FVec F S1024x12 .f32 := Host.absf main_arg7
  let main_cst_12 : FVec F S_ .f32 := constant S_ .f32 0x7F800000#32
  let main_v35 : FVec F S1024x12 .f32 := broadcastInDim S1024x12 ![] bcast_S_S1024x12 main_cst_12
  let main_v36 : IVec S1024x12 1 := cmpf .olt main_v34 main_v35
  let main_c_13 : IVec S_ 1 := constantI S_ 1 1#1
  let main_v37 : IVec S_ 1 := (fun x v => Host.reduce IntOp.andi x v reducesTo_S1024x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S1024 .f32) (main_arg5 : FVec F S1024x4 .f32) (main_arg6 : FVec F S4 .f32) (main_arg7 : FVec F S1024x12 .f32) (main_arg8 : FVec F S12 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4 .f32 := Host.absf main_arg5
  let main_cst_8 : FVec F S_ .f32 := constant S_ .f32 0x7F800000#32
  let main_v25 : FVec F S1024x4 .f32 := broadcastInDim S1024x4 ![] bcast_S_S1024x4 main_cst_8
  let main_v26 : IVec S1024x4 1 := cmpf .olt main_v24 main_v25
  let main_c_9 : IVec S_ 1 := constantI S_ 1 1#1
  let main_v27 : IVec S_ 1 := (fun x v => Host.reduce IntOp.andi x v reducesTo_S1024x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_v33

def fn {F : FTy → Type} [FloatOps F] (main_arg0 : FVec F S8192x12544 .f32) (main_arg1 : FVec F S12544x1024 .f32) (main_arg2 : FVec F S1024 .f32) (main_arg3 : FVec F S1024x1024 .f32) (main_arg4 : FVec F S1024 .f32) (main_arg5 : FVec F S1024x4 .f32) (main_arg6 : FVec F S4 .f32) (main_arg7 : FVec F S1024x12 .f32) (main_arg8 : FVec F S12 .f32) : IVec S_ 1 :=
  let main_v0 : FVec F S8192x12544 .f32 := Host.absf main_arg0
  let main_cst : FVec F S_ .f32 := constant S_ .f32 0x7F800000#32
  let main_v1 : FVec F S8192x12544 .f32 := broadcastInDim S8192x12544 ![] bcast_S_S8192x12544 main_cst
  let main_v2 : IVec S8192x12544 1 := cmpf .olt main_v0 main_v1
  let main_c : IVec S_ 1 := constantI S_ 1 1#1
  let main_v3 : IVec S_ 1 := (fun x v => Host.reduce IntOp.andi x v reducesTo_S8192x12544_S_d0_1 h_S_) main_v2 main_c
  let main_v4 : FVec F S12544x1024 .f32 := Host.absf main_arg1
  let main_cst_0 : FVec F S_ .f32 := constant S_ .f32 0x7F800000#32
  let main_v5 : FVec F S12544x1024 .f32 := broadcastInDim S12544x1024 ![] bcast_S_S12544x1024 main_cst_0
  let main_v6 : IVec S12544x1024 1 := cmpf .olt main_v4 main_v5
  let main_c_1 : IVec S_ 1 := constantI S_ 1 1#1
  let main_v7 : IVec S_ 1 := (fun x v => Host.reduce IntOp.andi x v reducesTo_S12544x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8192x12544 : Shape := ⟨2, ![8192, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S1024x16 : Shape := ⟨2, ![1024, 16]⟩
abbrev S1x1024 : Shape := ⟨2, ![1, 1024]⟩
abbrev S16 : Shape := ⟨1, ![16]⟩
abbrev S1x16 : Shape := ⟨2, ![1, 16]⟩
abbrev S8192x16 : Shape := ⟨2, ![8192, 16]⟩
abbrev S512x1792 : Shape := ⟨2, ![512, 1792]⟩
abbrev S1792x1024 : Shape := ⟨2, ![1792, 1024]⟩
abbrev S512x16 : Shape := ⟨2, ![512, 16]⟩
abbrev S512x1024 : Shape := ⟨2, ![512, 1024]⟩
abbrev S8192x4 : Shape := ⟨2, ![8192, 4]⟩
abbrev S8192x12 : Shape := ⟨2, ![8192, 12]⟩

abbrev nBuf : Space → Nat
  | .hbm => 20
  | .vmem => 12
  | .smem => 0
  | _ => 0

abbrev bufTy : (tb : Table) → Fin (tcTables nBuf tb) → BufTy
  | .hbm, ⟨0, _⟩ => ⟨S8192x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S12544x1024, .bf16⟩
  | .hbm, ⟨10, _⟩ => ⟨S1024x1024, .bf16⟩
  | .hbm, ⟨11, _⟩ => ⟨S1024x16, .f32⟩
  | .hbm, ⟨12, _⟩ => ⟨S1024x16, .bf16⟩
  | .hbm, ⟨13, _⟩ => ⟨S1x1024, .f32⟩
  | .hbm, ⟨14, _⟩ => ⟨S1x1024, .f32⟩
  | .hbm, ⟨15, _⟩ => ⟨S16, .f32⟩
  | .hbm, ⟨16, _⟩ => ⟨S1x16, .f32⟩
  | .hbm, ⟨17, _⟩ => ⟨S8192x16, .f32⟩
  | .hbm, ⟨18, _⟩ => ⟨S8192x4, .f32⟩
  | .hbm, ⟨19, _⟩ => ⟨S8192x12, .f32⟩
  | .local _ .vmem, ⟨0, _⟩ => ⟨S512x1792, .f32⟩
  | .local _ .vmem, ⟨1, _⟩ => ⟨S512x1792, .f32⟩
  | .local _ .vmem, ⟨2, _⟩ => ⟨S1792x1024, .bf16⟩
  | .local _ .vmem, ⟨3, _⟩ => ⟨S1792x1024, .bf16⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1024x16, .bf16⟩
  | .local _ .vmem, ⟨8, _⟩ => ⟨S1x16, .f32⟩
  | .local _ .vmem, ⟨9, _⟩ => ⟨S512x16, .f32⟩
  | .local _ .vmem, ⟨10, _⟩ => ⟨S512x16, .f32⟩
  | .local _ .vmem, ⟨11, _⟩ => ⟨S512x1024, .f32⟩
  | _, _ => ⟨S8192x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v13 : BitVec 1 := Scalar.cmpi .eq arg1 c6_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  concatenates_S1024x4_S1024x12_S1024x16_d1 : Shape.Concatenates [S1024x4, S1024x12] S1024x16 1
  shapeCasts_S1024_S1x1024 : S1024.ShapeCasts S1x1024
  concatenates_S4_S12_S16_d0 : Shape.Concatenates [S4, S12] S16 0
  shapeCasts_S16_S1x16 : S16.ShapeCasts S1x16
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1792_S512x1792_0_0 : ∀ a, (![0, 0] : Fin 2 → Nat) a + S512x1792.size a ≤ S512x1792.size a
  h_S512x1792 : 0 < S512x1792.numel
  inb_S1792x1024_S1792x1024_0_0 : ∀ a, (![0, 0] : Fin 2 → Nat) a + S1792x1024.size a ≤ S1792x1024.size a
  h_S1792x1024 : 0 < S1792x1024.numel
  shapeCasts_S1792x1024_S1792x1024 : S1792x1024.ShapeCasts S1792x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S512x16_S512x16_0_0 : ∀ a, (![0, 0] : Fin 2 → Nat) a + S512x16.size a ≤ S512x16.size a
  h_S512x16 : 0 < S512x16.numel
  slices_S8192x16_S8192x4_0_0 : S8192x16.Slices ![0, 0] S8192x4
  slices_S8192x16_S8192x12_0_4 : S8192x16.Slices ![0, 4] S8192x12
  dot_S512x1792_S1792x1024_S512x1024_1_0_0_1_n_n_wf : DotDims.WF S512x1792 S1792x1024 S512x1024 [1] [0] [0] [1] [] []
  dot_S512x1024_S1024x1024_S512x1024_1_0_0_1_n_n_wf : DotDims.WF S512x1024 S1024x1024 S512x1024 [1] [0] [0] [1] [] []
  dot_S512x1024_S1024x16_S512x16_1_0_0_1_n_n_wf : DotDims.WF S512x1024 S1024x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1792.size a ≤ S8192x12544.size a
  hwx0_0 : ∀ i : grid0.Coords, EltTy.bits .f32 = 32 ∨ (Rect.block (s := S8192x12544) S512x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x1024.size a ≤ S12544x1024.size a
  hwx0_1 : ∀ i : grid0.Coords, EltTy.bits .bf16 = 32 ∨ (Rect.block (s := S12544x1024) S1792x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S1024x16.size a
  hwx0_5 : ∀ i : grid0.Coords, EltTy.bits .bf16 = 32 ∨ (Rect.block (s := S1024x16) S1024x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x16.size a ≤ S8192x16.size a
  hwx0_7 : ∀ i : grid0.Coords, EltTy.bits .f32 = 32 ∨ (Rect.block (s := S8192x16) S512x16.size (cc0_transform_7 i) (hinb0_7 i)).WholeWords (EltTy.packing .f32)

variable [Facts₀]

def dot_S512x1792_S1792x1024_S512x1024_1_0_0_1_n_n : DotDims S512x1792 S1792x1024 S512x1024 where
  lhsContracting := [1]
  rhsContracting := [0]
  lhsNonContracting := [0]
  rhsNonContracting := [1]
  lhsBatch := []
  rhsBatch := []
  wf := dot_S512x1792_S1792x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf

abbrev win0_0 : Pipeline.Window sig grid0 :=
  Pipeline.Window.ofSpec (Memref.whole main_arg0) S512x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1792x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S512x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x12544 : Shape := ⟨2, ![8192, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S8192x1024 : Shape := ⟨2, ![8192, 1024]⟩
abbrev S1x1024 : Shape := ⟨2, ![1, 1024]⟩
abbrev S_ : Shape := ⟨0, ![]⟩
abbrev S8192x4 : Shape := ⟨2, ![8192, 4]⟩
abbrev S1x4 : Shape := ⟨2, ![1, 4]⟩
abbrev S8192x12 : Shape := ⟨2, ![8192, 12]⟩
abbrev S1x12 : Shape := ⟨2, ![1, 12]⟩

abbrev nBuf : Space → Nat
  | .hbm => 31
  | .vmem => 0
  | .smem => 0
  | _ => 0

abbrev bufTy : (tb : Table) → Fin (tcTables nBuf tb) → BufTy
  | .hbm, ⟨0, _⟩ => ⟨S8192x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x4, .f32⟩
  | .hbm, ⟨24, _⟩ => ⟨S1x4, .f32⟩
  | .hbm, ⟨25, _⟩ => ⟨S8192x4, .f32⟩
  | .hbm, ⟨26, _⟩ => ⟨S8192x4, .f32⟩
  | .hbm, ⟨27, _⟩ => ⟨S8192x12, .f32⟩
  | .hbm, ⟨28, _⟩ => ⟨S1x12, .f32⟩
  | .hbm, ⟨29, _⟩ => ⟨S8192x12, .f32⟩
  | .hbm, ⟨30, _⟩ => ⟨S8192x12, .f32⟩
  | _, _ => ⟨S8192x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  bcast_S12_S1x12_1 : S12.BroadcastsInDim S1x12 (![1] : Fin 1 → Fin S1x12.rank)
  bcast_S1x12_S8192x12_0_1 : S1x12.BroadcastsInDim S8192x12 (![0, 1] : Fin 2 → Fin S8192x12.rank)
  dot_S8192x12544_S12544x1024_S8192x1024_1_0_0_1_n_n_wf : DotDims.WF S8192x12544 S12544x1024 S8192x1024 [1] [0] [0] [1] [] []
  dot_S8192x1024_S1024x1024_S8192x1024_1_0_0_1_n_n_wf : DotDims.WF S8192x1024 S1024x1024 S8192x1024 [1] [0] [0] [1] [] []
  dot_S8192x1024_S1024x4_S8192x4_1_0_0_1_n_n_wf : DotDims.WF S8192x1024 S1024x4 S8192x4 [1] [0] [0] [1] [] []
  dot_S8192x1024_S1024x12_S8192x12_1_0_0_1_n_n_wf : DotDims.WF S8192x1024 S1024x12 S8192x12 [1] [0] [0] [1] [] []

variable [Facts₀]

def dot_S8192x12544_S12544x1024_S8192x1024_1_0_0_1_n_n : DotDims S8192x12544 S12544x1024 S8192x1024 where
  lhsContracting := [1]
  rhsContracting := [0]
  lhsNonContracting := [0]
  rhsNonContracting := [1]
  lhsBatch := []
  rhsBatch := []
  wf := dot_S8192x12544_S12544x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x4_S8192x4_1_0_0_1_n_n : DotDims S8192x1024 S1024x4 S8192x4 where
  lhsContracting := [1]
  rhsContracting := [0]
  lhsNonContracting := [0]
  rhsNonContracting := [1]
  lhsBatch := []
  rhsBatch := []
  wf := dot_S8192x1024_S1024x4_S8192x4_1_0_0_1_n_n_wf
def dot_S8192x1024_S1024x12_S8192x12_1_0_0_1_n_n : DotDims S8192x1024 S1024x12 S8192x12 where
  lhsContracting := [1]
  rhsContracting := [0]
  lhsNonContracting := [0]
  rhsNonContracting := [1]
  lhsBatch := []
  rhsBatch := []
  wf := dot_S8192x1024_S1024x12_S8192x12_1_0_0_1_n_n_wf

class Facts : Prop extends Facts₀ where

variable [Facts]
-- ==== Proof.Pieces.lean ====
/-
  What each case of the body leaves behind, as values of the blocks it was handed.

  The body has three cases. At the first step of a row tile's sweep over the contracted axis it clears the
  accumulator and then adds the product of its two blocks; at a middle step it adds the product onto what the
  accumulator held; at the last step it does the same and then stores the head of the accumulator into the output
  block. Each store writes a whole buffer through the whole-buffer rectangle at offset zero, so what a buffer ends
  holding is the last store's value, and a load that follows a store reads that store's value back.
-/
import proofs.«156846_j60997125537856_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BoxValue

open Cert.KernelIdeal Cert.KernelIdeal.Gen

variable {F : FTy → Type} [FloatOps F]

theorem hz : (![0, 0] : Fin 2 → Nat) = fun _ => 0 := funext fun a => by fin_cases a <;> rfl

/-- First step: the accumulator is cleared, then the product of the two blocks is added. -/
theorem acc_first (c : Dev nD) (i : grid0.Coords) (arg2 : Memref sig .tc .vmem S512x1792 .f32) (harg2 : arg2.IsWhole) (arg3 : Memref sig .tc .vmem S1792x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S512x16 .f32) (harg9 : arg9.IsWhole) (arg10 : Memref sig .tc .vmem S512x1024 .f32) (harg10 : arg10.IsWhole) (hc0 : cond0_0 i) (hc1 : ¬cond0_1 i)
    (x0 : Vec F S512x1792 .f32) (x1 : Vec F S1792x1024 .bf16) (x2 : Vec F S1x1024 .f32) (x3 : Vec F S1024x1024 .bf16) (x4 : Vec F S1x1024 .f32) (x5 : Vec F S1024x16 .bf16) (x6 : Vec F S1x16 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x0 (k0_pay1 (F := F)) x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S512x1024) hz, View.readCov_unit_zero (S := S512x1024) _ hz]
  simp only [View.readAt_eq_ld, harg2.read_unread, harg3.read_unread,
    View.ld_unit_zero (S := S512x1792) hz, View.ld_unit_zero (S := S1792x1024) hz]

/-- Middle step: the product of the two blocks is added onto what the accumulator held. -/
theorem acc_middle (c : Dev nD) (i : grid0.Coords) (arg2 : Memref sig .tc .vmem S512x1792 .f32) (harg2 : arg2.IsWhole) (arg3 : Memref sig .tc .vmem S1792x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S512x16 .f32) (harg9 : arg9.IsWhole) (arg10 : Memref sig .tc .vmem S512x1024 .f32) (harg10 : arg10.IsWhole) (hc0 : ¬cond0_0 i) (hc1 : ¬cond0_1 i)
    (x0 : Vec F S512x1792 .f32) (x1 : Vec F S1792x1024 .bf16) (x2 : Vec F S1x1024 .f32) (x3 : Vec F S1024x1024 .bf16) (x4 : Vec F S1x1024 .f32) (x5 : Vec F S1024x16 .bf16) (x6 : Vec F S1x16 .f32) (xs0 : Vec F S512x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x0 xs0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [View.canon_unit_zero hz]
  simp only [View.readAt_eq_ld, harg2.read_unread, harg3.read_unread, harg10.read_unread,
    View.ld_unit_zero (S := S512x1792) hz, View.ld_unit_zero (S := S1792x1024) hz, View.ld_unit_zero (S := S512x1024) hz]

/-- Last step, the accumulator: the same as a middle step. -/
theorem acc_last (c : Dev nD) (i : grid0.Coords) (arg2 : Memref sig .tc .vmem S512x1792 .f32) (harg2 : arg2.IsWhole) (arg3 : Memref sig .tc .vmem S1792x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S512x16 .f32) (harg9 : arg9.IsWhole) (arg10 : Memref sig .tc .vmem S512x1024 .f32) (harg10 : arg10.IsWhole) (hc0 : ¬cond0_0 i) (hc1 : cond0_1 i)
    (x0 : Vec F S512x1792 .f32) (x1 : Vec F S1792x1024 .bf16) (x2 : Vec F S1x1024 .f32) (x3 : Vec F S1024x1024 .bf16) (x4 : Vec F S1x1024 .f32) (x5 : Vec F S1024x16 .bf16) (x6 : Vec F S1x16 .f32) (xs0 : Vec F S512x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x0 xs0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg10.read_unread,
    View.ld_unit_zero (S := S512x1792) hz, View.ld_unit_zero (S := S1792x1024) hz, View.ld_unit_zero (S := S512x1024) hz]

/-- Last step, the output block: the head of the accumulator's new contents. -/
theorem out_last (c : Dev nD) (i : grid0.Coords) (arg2 : Memref sig .tc .vmem S512x1792 .f32) (harg2 : arg2.IsWhole) (arg3 : Memref sig .tc .vmem S1792x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S512x16 .f32) (harg9 : arg9.IsWhole) (arg10 : Memref sig .tc .vmem S512x1024 .f32) (harg10 : arg10.IsWhole) (hc0 : ¬cond0_0 i) (hc1 : cond0_1 i)
    (x0 : Vec F S512x1792 .f32) (x1 : Vec F S1792x1024 .bf16) (x2 : Vec F S1x1024 .f32) (x3 : Vec F S1024x1024 .bf16) (x4 : Vec F S1x1024 .f32) (x5 : Vec F S1024x16 .bf16) (x6 : Vec F S1x16 .f32) (xs0 : Vec F S512x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 (k0_pay2 x0 xs0 x1) x2 x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S512x1024) _ hz]
  simp only [View.readAt_eq_ld, harg2.read_unread, harg3.read_unread, harg4.read_unread, harg5.read_unread,
    harg6.read_unread, harg7.read_unread, harg8.read_unread, harg10.read_unread,
    View.ld_unit_zero (S := S512x1792) hz, View.ld_unit_zero (S := S1792x1024) hz, View.ld_unit_zero (S := S512x1024) hz,
    View.ld_unit_zero (S := S1x1024) hz, View.ld_unit_zero (S := S1024x1024) hz, View.ld_unit_zero (S := S1024x16) hz,
    View.ld_unit_zero (S := S1x16) hz]

end Cert.KernelIdeal.BoxValue

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.LibRowSoftmax.lean ====
/-
  Row-wise pieces of a dense network on the extended reals, entry by entry, generic in the sizes: a bias
  row added to every row of a matrix, that sum rectified, and the logarithm of the row-wise softmax —
  every entry minus its row's largest entry, minus the logarithm of the sum over the row of the
  exponentials of those differences.

  Each reads entry (p, q) of its result from row p of its matrix operand only, so computed on a block
  of rows it gives the rows of what it gives on the whole array (the block-of-rows laws). The vector
  unit's spelling (identity casts, a one-row broadcast, lane reductions from minus infinity and from zero
  kept as columns and broadcast back) and the host's spelling (two-step bias broadcasts, a maximum with a
  broadcast zero, reductions with a maximum and an add body, the row maximum taken once more against
  minus infinity) of each piece are that one function.
-/
import proofs.«156846_j60997125537856_2_alg».proof.Proof.LibDense
import proofs.«156846_j60997125537856_2_alg».proof.Proof.LibColumn

noncomputable section

open scoped BigOperators

namespace Cert.Gcn

open Cert.Dense Idealize.ShloMosaic Idealize.ShloMosaic.ValueIdx

variable {M M' N : ℕ}

/-- A one-row matrix added to every row of a matrix. -/
def addRow (A : Mat M N) (b : Mat 1 N) : Mat M N := fun i => A i + b (ix2 (0 : Fin 1) (i 1))

/-- A bias row added to every row, then the rectifier. -/
def biasRelu (A : Mat M N) (b : Mat 1 N) : Mat M N := relu (addRow A b)

/-- The word of single-precision minus infinity, read on the extended reals. -/
def negInf : EReal := Ideal.ofBits .f32 0xFF800000#32

/-- The largest entry of row p, folded from minus infinity. -/
def rowMax (Y : Mat M N) (p : Fin M) : EReal :=
  (Finset.univ : Finset (Fin N)).fold max negInf (fun k => Y (ix2 p k))

/-- The logarithm of the row-wise softmax: (y − m) − log Σ exp (y − m), m the row's largest entry. -/
def logSoftmax (Y : Mat M N) : Mat M N := fun i =>
  (Y i - rowMax Y (i 0)) - Ideal.log (∑ k : Fin N, Ideal.exp (Y (ix2 (i 0) k) - rowMax Y (i 0)))

/-- A bias row added to every row, then the logarithm of the row-wise softmax. -/
def biasLogSoftmax (A : Mat M N) (b : Mat 1 N) : Mat M N := logSoftmax (addRow A b)

/-- A vector laid out as the one row of a one-row matrix. -/
def rowOf (b : Row N) : Mat 1 N := fun i => b (ix1 (i 1))

theorem logSoftmax_apply (Y : Mat M N) (p : Fin M) (q : Fin N) :
    logSoftmax Y (ix2 p q)
      = (Y (ix2 p q) - rowMax Y p) - Ideal.log (∑ k : Fin N, Ideal.exp (Y (ix2 p k) - rowMax Y p)) := rfl

/-! ## On a block of rows -/

theorem addRow_rows (A : Mat M' N) (blk : Mat M N) (b : Mat 1 N) (ρ : Fin M → Fin M')
    (h : ∀ p k, blk (ix2 p k) = A (ix2 (ρ p) k)) (p : Fin M) (q : Fin N) :
    addRow blk b (ix2 p q) = addRow A b (ix2 (ρ p) q) := by
  show blk (ix2 p q) + b (ix2 (0 : Fin 1) q) = A (ix2 (ρ p) q) + b (ix2 (0 : Fin 1) q)
  rw [h p q]

theorem biasRelu_rows (A : Mat M' N) (blk : Mat M N) (b : Mat 1 N) (ρ : Fin M → Fin M')
    (h : ∀ p k, blk (ix2 p k) = A (ix2 (ρ p) k)) (p : Fin M) (q : Fin N) :
    biasRelu blk b (ix2 p q) = biasRelu A b (ix2 (ρ p) q) := by
  show max (addRow blk b (ix2 p q)) 0 = max (addRow A b (ix2 (ρ p) q)) 0
  rw [addRow_rows A blk b ρ h p q]

theorem rowMax_rows (Y : Mat M' N) (blk : Mat M N) (ρ : Fin M → Fin M')
    (h : ∀ p k, blk (ix2 p k) = Y (ix2 (ρ p) k)) (p : Fin M) : rowMax blk p = rowMax Y (ρ p) := by
  unfold rowMax
  exact congrArg (fun f => Finset.fold max negInf f (Finset.univ : Finset (Fin N))) (funext fun k => h p k)

theorem logSoftmax_rows (Y : Mat M' N) (blk : Mat M N) (ρ : Fin M → Fin M')
    (h : ∀ p k, blk (ix2 p k) = Y (ix2 (ρ p) k)) (p : Fin M) (q : Fin N) :
    logSoftmax blk (ix2 p q) = logSoftmax Y (ix2 (ρ p) q) := by
  rw [logSoftmax_apply, logSoftmax_apply, rowMax_rows Y blk ρ h p, h p q]
  exact congrArg (fun s => (Y (ix2 (ρ p) q) - rowMax Y (ρ p)) - Ideal.log s)
    (Finset.sum_congr rfl fun k _ => by rw [h p k])

theorem biasLogSoftmax_rows (A : Mat M' N) (blk : Mat M N) (b : Mat 1 N) (ρ : Fin M → Fin M')
    (h : ∀ p k, blk (ix2 p k) = A (ix2 (ρ p) k)) (p : Fin M) (q : Fin N) :
    biasLogSoftmax blk b (ix2 p q) = biasLogSoftmax A b (ix2 (ρ p) q) :=
  logSoftmax_rows (addRow A b) (addRow blk b) ρ (fun p k => addRow_rows A blk b ρ h p k) p q

/-! ## As the vector unit spells them -/

/-- The block plus the bias row broadcast over its rows (the casts to the same shape are the identity). -/
theorem addf_cast_broadcastTo (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩) :
    addf (shapeCast ⟨2, ![M, N]⟩ x0 h0) (broadcastTo ⟨2, ![M, N]⟩ (shapeCast ⟨2, ![1, N]⟩ x1 h1) hb) = addRow x0 x1 := by
  rw [shapeCast_self, shapeCast_self]
  funext i
  obtain ⟨p, q, rfl⟩ : ∃ (p : Fin M) (q : Fin N), i = ix2 p q := ⟨i 0, i 1, eq_ix2 i⟩
  show x0 (ix2 p q) + broadcastTo ⟨2, ![M, N]⟩ x1 hb (ix2 p q) = x0 (ix2 p q) + x1 (ix2 (0 : Fin 1) q)
  rw [broadcastTo_1b_ab_apply]

/-- Bias, then the maximum with a splat of the zero word. -/
theorem kernel_biasRelu (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ x0 h0) (broadcastTo ⟨2, ![M, N]⟩ (shapeCast ⟨2, ![1, N]⟩ x1 h1) hb))
        (broadcast ⟨2, ![M, N]⟩ (Scalar.ofBits (F := Ideal) .f32 0x00000000#32))
      = biasRelu x0 x1 := by
  rw [addf_cast_broadcastTo]
  exact maximumf_splat_zero _

/-- The reduced index p with column k put back is (p, k). -/
theorem lift_axis1 (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A lane maximum from minus infinity, kept as a vector over the rows, is the row's largest entry. -/
theorem reduce_max_row (Y : FVec Ideal ⟨2, ![M, N]⟩ .f32) (hr : (⟨2, ![M, N]⟩ : Shape).Reduces [1] (⟨1, ![M]⟩ : Shape))
    (hφ : FKind.Formats .f32) (hacc : (0xFF800000#32 : BitVec 32) = FKind.maximumf.neutral .f32 hφ) (p : Fin M) :
    multiReduction .maximumf [1] ⟨1, ![M]⟩ Y 0xFF800000#32 hr hφ hacc (ix1 p) = rowMax Y p := by
  refine (Ideal.multiReduction_maximumf_single Y 0xFF800000#32 hr hφ hacc (ix1 p)).trans ?_
  show Finset.fold max negInf (Y ∘ hr.lift (ix1 p)) (Finset.univ : Finset (Fin N)) = _
  exact congrArg (fun f => Finset.fold max negInf f (Finset.univ : Finset (Fin N)))
    (funext fun k => congrArg Y (lift_axis1 hr p k))

/-- A lane sum from zero, kept as a vector over the rows, is the sum over the row. -/
theorem reduce_add_row (Z : FVec Ideal ⟨2, ![M, N]⟩ .f32) (hr : (⟨2, ![M, N]⟩ : Shape).Reduces [1] (⟨1, ![M]⟩ : Shape))
    (hφ : FKind.Formats .f32) (hacc : (0x00000000#32 : BitVec 32) = FKind.add.neutral .f32 hφ) (p : Fin M) :
    multiReduction .add [1] ⟨1, ![M]⟩ Z 0x00000000#32 hr hφ hacc (ix1 p) = ∑ k : Fin N, Z (ix2 p k) := by
  refine (Ideal.multiReduction_add_single Z 0x00000000#32 hr hφ hacc (ix1 p)).trans ?_
  show ∑ k : Fin N, Z (hr.lift (ix1 p) k) = _
  exact Finset.sum_congr rfl fun k _ => congrArg Z (lift_axis1 hr p k)

/-- A column broadcast along the rows' second axis, read at (p, q): the column's entry p. -/
theorem broadcastTo_a1_ab_apply {α : Type} (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- The vector unit's logarithm of the row-wise softmax: the row maxima and the row sums are lane reductions kept as
    columns and broadcast back over the row. -/
theorem kernel_logSoftmax (Y : FVec Ideal ⟨2, ![M, N]⟩ .f32) (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩) :
    subf (subf Y (broadcastTo ⟨2, ![M, N]⟩ (shapeCast ⟨2, ![M, 1]⟩ (multiReduction .maximumf [1] ⟨1, ![M]⟩ Y 0xFF800000#32 hr hφ hmax) hc) hb))
      (broadcastTo ⟨2, ![M, N]⟩ (log (shapeCast ⟨2, ![M, 1]⟩ (multiReduction .add [1] ⟨1, ![M]⟩
        (exp (subf Y (broadcastTo ⟨2, ![M, N]⟩ (shapeCast ⟨2, ![M, 1]⟩ (multiReduction .maximumf [1] ⟨1, ![M]⟩ Y 0xFF800000#32 hr hφ hmax) hc) hb)))
        0x00000000#32 hr hφ hadd) hc)) hb)
      = logSoftmax Y := by
  have hm : ∀ (p : Fin M) (q : Fin N),
      broadcastTo ⟨2, ![M, N]⟩ (shapeCast ⟨2, ![M, 1]⟩ (multiReduction .maximumf [1] ⟨1, ![M]⟩ Y 0xFF800000#32 hr hφ hmax) hc) hb (ix2 p q)
        = rowMax Y p := fun p q => by
    rw [broadcastTo_a1_ab_apply, Cert.Layout.cast_vec_col_apply, reduce_max_row]
  funext i
  obtain ⟨p, q, rfl⟩ : ∃ (p : Fin M) (q : Fin N), i = ix2 p q := ⟨i 0, i 1, eq_ix2 i⟩
  rw [logSoftmax_apply, subf_apply, subf_apply, hm p q, broadcastTo_a1_ab_apply]
  show (Y (ix2 p q) - rowMax Y p) - Ideal.log (shapeCast ⟨2, ![M, 1]⟩ (multiReduction .add [1] ⟨1, ![M]⟩
        (exp (subf Y (broadcastTo ⟨2, ![M, N]⟩ (shapeCast ⟨2, ![M, 1]⟩ (multiReduction .maximumf [1] ⟨1, ![M]⟩ Y 0xFF800000#32 hr hφ hmax) hc) hb)))
        0x00000000#32 hr hφ hadd) hc (ix2 p (0 : Fin 1))) = _
  rw [Cert.Layout.cast_vec_col_apply, reduce_add_row]
  refine congrArg (fun s => (Y (ix2 p q) - rowMax Y p) - Ideal.log s) (Finset.sum_congr rfl fun k _ => ?_)
  show Ideal.exp (Y (ix2 p k) - broadcastTo ⟨2, ![M, N]⟩ (shapeCast ⟨2, ![M, 1]⟩ (multiReduction .maximumf [1] ⟨1, ![M]⟩ Y 0xFF800000#32 hr hφ hmax) hc) hb (ix2 p k)) = _
  rw [hm p k]

/-- Bias, then the vector unit's logarithm of the row-wise softmax. -/
theorem kernel_biasLogSoftmax (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩)
    (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb2 : (⟨2, ![M, 1]⟩ : Shape).Broadcasts ⟨2, ![M, N]⟩) :
    subf (subf (addf (shapeCast ⟨2, ![M, N]⟩ x0 h0) (broadcastTo ⟨2, ![M, N]⟩ (shapeCast ⟨2, ![1, N]⟩ x1 h1) hb)) (broadcastTo ⟨2, ![M, N]⟩ (shapeCast ⟨2, ![M, 1]⟩ (multiReduction .maximumf [1] ⟨1, ![M]⟩ (addf (shapeCast ⟨2, ![M, N]⟩ x0 h0) (broadcastTo ⟨2, ![M, N]⟩ (shapeCast ⟨2, ![1, N]⟩ x1 h1) hb)) 0xFF800000#32 hr hφ hmax) hc) hb2))
      (broadcastTo ⟨2, ![M, N]⟩ (log (shapeCast ⟨2, ![M, 1]⟩ (multiReduction .add [1] ⟨1, ![M]⟩
        (exp (subf (addf (shapeCast ⟨2, ![M, N]⟩ x0 h0) (broadcastTo ⟨2, ![M, N]⟩ (shapeCast ⟨2, ![1, N]⟩ x1 h1) hb)) (broadcastTo ⟨2, ![M, N]⟩ (shapeCast ⟨2, ![M, 1]⟩ (multiReduction .maximumf [1] ⟨1, ![M]⟩ (addf (shapeCast ⟨2, ![M, N]⟩ x0 h0) (broadcastTo ⟨2, ![M, N]⟩ (shapeCast ⟨2, ![1, N]⟩ x1 h1) hb)) 0xFF800000#32 hr hφ hmax) hc) hb2)))
        0x00000000#32 hr hφ hadd) hc)) hb2)
      = biasLogSoftmax x0 x1 := by
  rw [addf_cast_broadcastTo]
  exact kernel_logSoftmax _ hr hφ hmax hadd hc hb2

/-! ## As the host spells them -/

/-- A vector reshaped to one row is its one-row layout. -/
theorem shapeCast_row (b : Row N) (h : (⟨1, ![N]⟩ : Shape).ShapeCasts ⟨2, ![1, N]⟩) :
    shapeCast ⟨2, ![1, N]⟩ b h = rowOf b := by
  funext i
  obtain ⟨r, q, rfl⟩ : ∃ (r : Fin 1) (q : Fin N), i = ix2 r q := ⟨i 0, i 1, eq_ix2 i⟩
  obtain rfl : r = 0 := Subsingleton.elim _ _
  exact Cert.Layout.cast_vec_row_apply b h q

/-- The host's bias: the vector broadcast to one row and then over the rows, added. -/
theorem host_addRow (A : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf A (broadcastInDim ⟨2, ![M, N]⟩ ![0, 1] h2 (broadcastInDim ⟨2, ![1, N]⟩ ![1] h1 b)) = addRow A (rowOf b) := by
  funext i
  obtain ⟨p, q, rfl⟩ : ∃ (p : Fin M) (q : Fin N), i = ix2 p q := ⟨i 0, i 1, eq_ix2 i⟩
  show A (ix2 p q) + broadcastInDim ⟨2, ![M, N]⟩ ![0, 1] h2 (broadcastInDim ⟨2, ![1, N]⟩ ![1] h1 b) (ix2 p q) = A (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The host's bias and rectifier. -/
theorem host_biasRelu (A : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf A (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = biasRelu A (rowOf b) := by
  rw [host_addRow]
  exact maximumf_broadcastInDim_zero _ h0

/-- The maximum with minus infinity changes nothing. -/
theorem max_negInf (z : EReal) : max negInf z = z := by
  show max (Ideal.ofBits .f32 0xFF800000#32) z = z
  simp [Ideal.ofBits, Ideal.ieee]

/-- A column broadcast over the rows' second axis by the host, read at (p, q): the column's entry p. -/
theorem broadcastInDim_a1_ab_apply {α : Type} (v : (⟨2, ![M, 1]⟩ : Shape).Idx → α)
    (h : (⟨2, ![M, 1]⟩ : Shape).BroadcastsInDim ⟨2, ![M, N]⟩ ![0, 1]) (p : Fin M) (q : Fin N) :
    broadcastInDim ⟨2, ![M, N]⟩ ![0, 1] h v (ix2 p q) = v (ix2 p (0 : Fin 1)) :=
  broadcastInDim_apply ![0, 1] h v (ix2 p q) (ix2 p (0 : Fin 1)) (fun ax => by
    match ax with
    | ⟨0, _⟩ =>
      show p.val = if M = 1 then 0 else p.val
      split
      · have := p.isLt; omega
      · rfl
    | ⟨1, _⟩ =>
      show 0 = if (1 : ℕ) = 1 then 0 else q.val
      rw [if_pos rfl])

/-- The host's row maximum from minus infinity, at row p: the row's largest entry. -/
theorem host_reduce_max_row (Y : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel) (p : Fin M) :
    Host.reduce FloatOps.maximumf Y (constant (F := Ideal) ⟨0, ![]⟩ .f32 0xFF800000#32) hrt hu (ix1 p) = rowMax Y p := by
  rw [Host.reduce_eq_fold_single FloatOps.maximumf Y _ hrt hr hu]
  show Finset.fold max negInf (Y ∘ hr.lift (ix1 p)) (Finset.univ : Finset (Fin N)) = _
  exact congrArg (fun f => Finset.fold max negInf f (Finset.univ : Finset (Fin N)))
    (funext fun k => congrArg Y (lift_axis1 hr p k))

/-- The host's row sum from zero, at row p. -/
theorem host_reduce_add_row (Z : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel) (p : Fin M) :
    Host.reduceAdd Z (constant (F := Ideal) ⟨0, ![]⟩ .f32 0x00000000#32) hrt hu (ix1 p) = ∑ k : Fin N, Z (ix2 p k) := by
  simp only [Host.reduceAdd, Ideal.hostReduceAdd_def]
  rw [Ideal.hostReduceAdd_single hrt hr]
  show Ideal.ofBits .f32 0x00000000#32 + ∑ k : Fin N, Z (hr.lift (ix1 p) k) = _
  rw [Ideal.ofBits_zero_f32, zero_add]
  exact Finset.sum_congr rfl fun k _ => congrArg Z (lift_axis1 hr p k)

/-- The host's logarithm of the row-wise softmax: the row maxima (taken once more against minus infinity) and the row
    sums are reductions broadcast back to a column and then over the row. -/
theorem host_logSoftmax (Y : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (hb0 : (⟨0, ![]⟩ : Shape).BroadcastsInDim ⟨1, ![M]⟩ ![]) (hb1 : (⟨1, ![M]⟩ : Shape).BroadcastsInDim ⟨2, ![M, 1]⟩ ![0])
    (hb2 : (⟨2, ![M, 1]⟩ : Shape).BroadcastsInDim ⟨2, ![M, N]⟩ ![0, 1]) :
    subf (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu)))))
      (broadcastInDim ⟨2, ![M, N]⟩ ![0, 1] hb2 (Host.log (broadcastInDim ⟨2, ![M, 1]⟩ ![0] hb1
        (Host.reduceAdd (Host.exp (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))))))
          (constant (F := Ideal) ⟨0, ![]⟩ .f32 0x00000000#32) hrt hu))))
      = logSoftmax Y := by
  have hm : ∀ (p : Fin M) (q : Fin N),
      broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))) (ix2 p q)
        = rowMax Y p := fun p q => by
    rw [broadcastInDim_a1_ab_apply, Cert.Layout.bcast_vec_col_apply, maximumf_apply, Cert.Layout.bcast_scalar_apply,
      host_reduce_max_row Y hrt hr hu p]
    exact max_negInf _
  funext i
  obtain ⟨p, q, rfl⟩ : ∃ (p : Fin M) (q : Fin N), i = ix2 p q := ⟨i 0, i 1, eq_ix2 i⟩
  rw [logSoftmax_apply, subf_apply, subf_apply, hm p q, broadcastInDim_a1_ab_apply]
  show (Y (ix2 p q) - rowMax Y p) - Ideal.log (broadcastInDim ⟨2, ![M, 1]⟩ ![0] hb1
        (Host.reduceAdd (Host.exp (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))))))
          (constant (F := Ideal) ⟨0, ![]⟩ .f32 0x00000000#32) hrt hu) (ix2 p (0 : Fin 1))) = _
  rw [Cert.Layout.bcast_vec_col_apply, host_reduce_add_row _ hrt hr hu p]
  refine congrArg (fun s => (Y (ix2 p q) - rowMax Y p) - Ideal.log s) (Finset.sum_congr rfl fun k _ => ?_)
  show Ideal.exp (Y (ix2 p k) - broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))) (ix2 p k)) = _
  rw [hm p k]

end Cert.Gcn

end
-- ==== Proof.LibFusedLayer.lean ====
/-
  A rectified layer fused with the next layer's product, entry by entry, generic in the sizes.

  A layer's activation is its aggregated input plus a bias row, cut at zero. The next layer's transform is that
  activation times a weight matrix, and the head adds one more bias row to every row of its product. Entry (p, q)
  of each of these reads row p of the aggregated input only, so computed on a block of rows they give the rows of
  what they give on the whole array. The vector unit's spelling (casts to the same shape, one-row broadcasts, a
  change of float format before a product into a zero accumulator) and the host's spelling (two-step bias
  broadcasts, a maximum with a broadcast zero, a general dot product) are these same functions on the extended
  reals: a change of float format is the identity there, and both products are the one finite sum.
-/
import proofs.«156846_j60997125537856_2_alg».proof.Proof.LibDense
import proofs.«156846_j60997125537856_2_alg».proof.Proof.LibRowSoftmax

noncomputable section

open scoped BigOperators

namespace Cert.Fused

open Cert.Dense Cert.Gcn Idealize.ShloMosaic Idealize.ShloMosaic.ValueIdx

variable {M M' K N : ℕ}

/-- The activation of the aggregated input `A` under the bias row `b`, times the weights `W`:
    entry (p, q) is the sum over k of max (A(p, k) + b(k)) 0 · W(k, q). -/
def actMm (A : Mat M K) (b : Mat 1 K) (W : Mat K N) : Mat M N := mm (biasRelu A b) W

/-- The same with an output bias row `bo` added to every row: the network's head. -/
def actMmBias (A : Mat M K) (b : Mat 1 K) (W : Mat K N) (bo : Mat 1 N) : Mat M N := addRow (actMm A b W) bo

/-! ## On a block of rows -/

/-- Row p of the block's result is row ρ p of the whole result when row p of the block is row ρ p of the array. -/
theorem actMm_rows (A : Mat M' K) (blk : Mat M K) (b : Mat 1 K) (W : Mat K N) (ρ : Fin M → Fin M')
    (h : ∀ p k, blk (ix2 p k) = A (ix2 (ρ p) k)) (p : Fin M) (q : Fin N) :
    actMm blk b W (ix2 p q) = actMm A b W (ix2 (ρ p) q) :=
  mm_rows (biasRelu A b) (biasRelu blk b) W ρ (fun p k => biasRelu_rows A blk b ρ h p k) p q

theorem actMmBias_rows (A : Mat M' K) (blk : Mat M K) (b : Mat 1 K) (W : Mat K N) (bo : Mat 1 N) (ρ : Fin M → Fin M')
    (h : ∀ p k, blk (ix2 p k) = A (ix2 (ρ p) k)) (p : Fin M) (q : Fin N) :
    actMmBias blk b W bo (ix2 p q) = actMmBias A b W bo (ix2 (ρ p) q) :=
  addRow_rows (actMm A b W) (actMm blk b W) bo ρ (fun p k => actMm_rows A blk b W ρ h p k) p q

/-! ## A block of rows at an offset

The same laws for a block read through an index correspondence: entry `y` of the block is entry `z` of the array
whenever `z` is `y` moved down by `r0` rows. The entry `j` of the block's result is then the entry `i` of the whole
result, `i` being `j` moved down by `r0` rows. -/

theorem mm_block (A : Mat M' K) (blk : Mat M K) (W : Mat K N) (r0 : ℕ)
    (j : (⟨2, ![M, N]⟩ : Shape).Idx) (i : (⟨2, ![M', N]⟩ : Shape).Idx)
    (hblk : ∀ (y : (⟨2, ![M, K]⟩ : Shape).Idx) (z : (⟨2, ![M', K]⟩ : Shape).Idx),
      (z 0).val = r0 + (y 0).val → (z 1).val = (y 1).val → blk y = A z)
    (hi0 : (i 0).val = r0 + (j 0).val) (hi1 : (i 1).val = (j 1).val) :
    mm blk W j = mm A W i := by
  have hq : i 1 = j 1 := Fin.ext hi1
  show ∑ k : Fin K, blk (ix2 (j 0) k) * W (ix2 k (j 1)) = ∑ k : Fin K, A (ix2 (i 0) k) * W (ix2 k (i 1))
  rw [hq]
  refine Finset.sum_congr rfl fun k _ => ?_
  rw [hblk (ix2 (j 0) k) (ix2 (i 0) k) hi0 rfl]

theorem actMm_block (A : Mat M' K) (blk : Mat M K) (b : Mat 1 K) (W : Mat K N) (r0 : ℕ)
    (j : (⟨2, ![M, N]⟩ : Shape).Idx) (i : (⟨2, ![M', N]⟩ : Shape).Idx)
    (hblk : ∀ (y : (⟨2, ![M, K]⟩ : Shape).Idx) (z : (⟨2, ![M', K]⟩ : Shape).Idx),
      (z 0).val = r0 + (y 0).val → (z 1).val = (y 1).val → blk y = A z)
    (hi0 : (i 0).val = r0 + (j 0).val) (hi1 : (i 1).val = (j 1).val) :
    actMm blk b W j = actMm A b W i :=
  mm_block (biasRelu A b) (biasRelu blk b) W r0 j i
    (fun y z h0 h1 => by
      show max (blk y + b (ix2 (0 : Fin 1) (y 1))) 0 = max (A z + b (ix2 (0 : Fin 1) (z 1))) 0
      rw [hblk y z h0 h1, show z 1 = y 1 from Fin.ext h1])
    hi0 hi1

theorem actMmBias_block (A : Mat M' K) (blk : Mat M K) (b : Mat 1 K) (W : Mat K N) (bo : Mat 1 N) (r0 : ℕ)
    (j : (⟨2, ![M, N]⟩ : Shape).Idx) (i : (⟨2, ![M', N]⟩ : Shape).Idx)
    (hblk : ∀ (y : (⟨2, ![M, K]⟩ : Shape).Idx) (z : (⟨2, ![M', K]⟩ : Shape).Idx),
      (z 0).val = r0 + (y 0).val → (z 1).val = (y 1).val → blk y = A z)
    (hi0 : (i 0).val = r0 + (j 0).val) (hi1 : (i 1).val = (j 1).val) :
    actMmBias blk b W bo j = actMmBias A b W bo i := by
  show actMm blk b W j + bo (ix2 (0 : Fin 1) (j 1)) = actMm A b W i + bo (ix2 (0 : Fin 1) (i 1))
  rw [actMm_block A blk b W r0 j i hblk hi0 hi1, show i 1 = j 1 from Fin.ext hi1]

/-! ## As the vector unit spells them -/

/-- The plain product of two blocks, each first changed to the narrow float format, into a zero accumulator. -/
theorem kernel_mm (x0 : FVec Ideal ⟨2, ![M, K]⟩ .f32) (x1 : FVec Ideal ⟨2, ![K, N]⟩ .f32)
    (ht : (FTy.bf16).bits < (FTy.f32).bits) :
    matmul (DotDims.plain M K N) none (truncf .bf16 x0 ht) (truncf .bf16 x1 ht)
        (constant (F := Ideal) ⟨2, ![M, N]⟩ .f32 0x00000000#32)
      = mm x0 x1 :=
  matmul_plain_zero none (truncf .bf16 x0 ht) (truncf .bf16 x1 ht)

/-- Bias, rectifier, change of format, product into a zero accumulator. -/
theorem kernel_actMm (x0 : FVec Ideal ⟨2, ![M, K]⟩ .f32) (x1 : FVec Ideal ⟨2, ![1, K]⟩ .f32) (x2 : FVec Ideal ⟨2, ![K, N]⟩ .f32)
    (h0 : (⟨2, ![M, K]⟩ : Shape).ShapeCasts ⟨2, ![M, K]⟩) (h1 : (⟨2, ![1, K]⟩ : Shape).ShapeCasts ⟨2, ![1, K]⟩)
    (hb : (⟨2, ![1, K]⟩ : Shape).Broadcasts ⟨2, ![M, K]⟩) (ht : (FTy.bf16).bits < (FTy.f32).bits) :
    matmul (DotDims.plain M K N) none
        (truncf .bf16 (maximumf (addf (shapeCast ⟨2, ![M, K]⟩ x0 h0) (broadcastTo ⟨2, ![M, K]⟩ (shapeCast ⟨2, ![1, K]⟩ x1 h1) hb))
          (broadcast ⟨2, ![M, K]⟩ (Scalar.ofBits (F := Ideal) .f32 0x00000000#32))) ht)
        (truncf .bf16 x2 ht) (constant (F := Ideal) ⟨2, ![M, N]⟩ .f32 0x00000000#32)
      = actMm x0 x1 x2 :=
  (kernel_mm _ x2 ht).trans (congrArg (fun X => mm X x2) (kernel_biasRelu x0 x1 h0 h1 hb))

/-- A one-row matrix (cast to its own shape) broadcast over the rows and added. -/
theorem addf_broadcastTo_row (X : FVec Ideal ⟨2, ![M, N]⟩ .f32) (x1 : FVec Ideal ⟨2, ![1, N]⟩ .f32)
    (h1 : (⟨2, ![1, N]⟩ : Shape).ShapeCasts ⟨2, ![1, N]⟩) (hb : (⟨2, ![1, N]⟩ : Shape).Broadcasts ⟨2, ![M, N]⟩) :
    addf X (broadcastTo ⟨2, ![M, N]⟩ (shapeCast ⟨2, ![1, N]⟩ x1 h1) hb) = addRow X x1 := by
  rw [shapeCast_self]
  funext i
  obtain ⟨p, q, rfl⟩ : ∃ (p : Fin M) (q : Fin N), i = ix2 p q := ⟨i 0, i 1, eq_ix2 i⟩
  show X (ix2 p q) + broadcastTo ⟨2, ![M, N]⟩ x1 hb (ix2 p q) = X (ix2 p q) + x1 (ix2 (0 : Fin 1) q)
  rw [broadcastTo_1b_ab_apply]

/-- The head: the same, then the output bias row broadcast over the rows and added. -/
theorem kernel_actMmBias (x0 : FVec Ideal ⟨2, ![M, K]⟩ .f32) (x1 : FVec Ideal ⟨2, ![1, K]⟩ .f32) (x2 : FVec Ideal ⟨2, ![K, N]⟩ .f32)
    (x3 : FVec Ideal ⟨2, ![1, N]⟩ .f32)
    (h0 : (⟨2, ![M, K]⟩ : Shape).ShapeCasts ⟨2, ![M, K]⟩) (h1 : (⟨2, ![1, K]⟩ : Shape).ShapeCasts ⟨2, ![1, K]⟩)
    (hb : (⟨2, ![1, K]⟩ : Shape).Broadcasts ⟨2, ![M, K]⟩) (ht : (FTy.bf16).bits < (FTy.f32).bits)
    (h3 : (⟨2, ![1, N]⟩ : Shape).ShapeCasts ⟨2, ![1, N]⟩) (hb3 : (⟨2, ![1, N]⟩ : Shape).Broadcasts ⟨2, ![M, N]⟩) :
    addf (matmul (DotDims.plain M K N) none
        (truncf .bf16 (maximumf (addf (shapeCast ⟨2, ![M, K]⟩ x0 h0) (broadcastTo ⟨2, ![M, K]⟩ (shapeCast ⟨2, ![1, K]⟩ x1 h1) hb))
          (broadcast ⟨2, ![M, K]⟩ (Scalar.ofBits (F := Ideal) .f32 0x00000000#32))) ht)
        (truncf .bf16 x2 ht) (constant (F := Ideal) ⟨2, ![M, N]⟩ .f32 0x00000000#32))
      (broadcastTo ⟨2, ![M, N]⟩ (shapeCast ⟨2, ![1, N]⟩ x3 h3) hb3)
      = actMmBias x0 x1 x2 x3 := by
  rw [kernel_actMm x0 x1 x2 h0 h1 hb ht, addf_broadcastTo_row]
  rfl

/-! ## As the host spells them -/

/-- Bias by two broadcasts, maximum with a broadcast zero, general dot product. -/
theorem host_actMm (A : FVec Ideal ⟨2, ![M, K]⟩ .f32) (b : FVec Ideal ⟨1, ![K]⟩ .f32) (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) :
    Host.dotGeneral (F := Ideal) (DotDims.plain M K N) none
        (maximumf (addf A (broadcastInDim ⟨2, ![M, K]⟩ ![0, 1] h2 (broadcastInDim ⟨2, ![1, K]⟩ ![1] h1 b)))
          (broadcastInDim ⟨2, ![M, K]⟩ ![] h0 (constant (F := Ideal) ⟨0, ![]⟩ .f32 0x00000000#32))) W
      = actMm A (rowOf b) W :=
  (dotGeneral_plain _ W).trans (congrArg (fun X => mm X W) (host_biasRelu A b h1 h2 h0))

/-- The head on the host: the same, then the output bias by two broadcasts. -/
theorem host_actMmBias (A : FVec Ideal ⟨2, ![M, K]⟩ .f32) (b : FVec Ideal ⟨1, ![K]⟩ .f32) (W : FVec Ideal ⟨2, ![K, N]⟩ .f32)
    (bo : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) :
    addf (Host.dotGeneral (F := Ideal) (DotDims.plain M K N) none
        (maximumf (addf A (broadcastInDim ⟨2, ![M, K]⟩ ![0, 1] h2 (broadcastInDim ⟨2, ![1, K]⟩ ![1] h1 b)))
          (broadcastInDim ⟨2, ![M, K]⟩ ![] h0 (constant (F := Ideal) ⟨0, ![]⟩ .f32 0x00000000#32))) W)
      (broadcastInDim ⟨2, ![M, N]⟩ ![0, 1] g2 (broadcastInDim ⟨2, ![1, N]⟩ ![1] g1 bo))
      = actMmBias A (rowOf b) W (rowOf bo) := by
  rw [host_actMm A b W h1 h2 h0]
  exact host_addRow (actMm A (rowOf b) W) bo g1 g2

end Cert.Fused

end
-- ==== Proof.LibAffineCols.lean ====
/-
  Columns of an affine layer. A layer whose weight matrix is several matrices set side by side, and whose bias row is
  the matching biases set end to end, computes all the pieces' layers at once: the slice of its result on one piece's
  columns is that piece's layer. The statements here are the entry-by-entry facts behind that: a column of the layer
  sees only that column of the weights and that entry of the bias; slices, concatenations and the vector-to-row cast
  read at an entry.
-/
import proofs.«156846_j60997125537856_2_alg».proof.Proof.LibDense

noncomputable section

open scoped BigOperators

namespace Cert.Dense

open Idealize.ShloMosaic Idealize.ShloMosaic.ValueIdx

variable {M K N N' : ℕ}

/-- A column of an affine layer depends on that column of the weight matrix and that entry of the bias only: if column
    σ j of W is column j of W' and entry σ j of the bias row is entry j of b', then entry (p, σ j) of the layer with W and
    the bias row is entry (p, j) of the layer with W' and b'. -/
theorem affine2_cols (A : Mat M K) (W : Mat K N) (b : Mat 1 N) (W' : Mat K N') (b' : Row N') (σ : Fin N' → Fin N)
    (hW : ∀ k j, W (ix2 k (σ j)) = W' (ix2 k j)) (hb : ∀ j, b (ix2 (0 : Fin 1) (σ j)) = b' (ix1 j)) (p : Fin M) (j : Fin N') :
    affine2 A W b (ix2 p (σ j)) = affine A W' b' (ix2 p j) := by
  show mm A W (ix2 p (σ j)) + b (ix2 (0 : Fin 1) (σ j)) = mm A W' (ix2 p j) + b' (ix1 j)
  rw [hb]
  refine congrArg (· + b' (ix1 j)) ?_
  unfold mm
  exact Finset.sum_congr rfl fun k _ => by
    show A (ix2 p k) * W (ix2 k (σ j)) = A (ix2 p k) * W' (ix2 k j)
    rw [hW]

/-- A unit-stride slice of columns off … off + N' − 1 of a matrix, read at an entry. -/
theorem slice_cols_apply (X : Mat M N) (off : ℕ) (h : (⟨2, ![M, N]⟩ : Shape).Slices ![0, off] ⟨2, ![M, N']⟩)
    (p : Fin M) (j : Fin N') (hj : off + j.val < N) :
    extractStridedSlice ⟨2, ![M, N']⟩ ![0, off] X h (ix2 p j) = X (ix2 p ⟨off + j.val, hj⟩) :=
  extractStridedSlice_apply ![0, off] X h (ix2 p j) (ix2 p ⟨off + j.val, hj⟩) fun a => by
    match a with
    | ⟨0, _⟩ => show p.val = 0 + p.val; omega
    | ⟨1, _⟩ => rfl

/-- So a slice of columns of an affine layer whose weight matrix and bias row restrict, on those columns, to W' and b'
    is the affine layer with W' and b'. -/
theorem slice_affine2 (A : Mat M K) (W : Mat K N) (b : Mat 1 N) (W' : Mat K N') (b' : Row N') (off : ℕ)
    (hoff : ∀ j : Fin N', off + j.val < N) (h : (⟨2, ![M, N]⟩ : Shape).Slices ![0, off] ⟨2, ![M, N']⟩)
    (hW : ∀ k (j : Fin N'), W (ix2 k ⟨off + j.val, hoff j⟩) = W' (ix2 k j))
    (hb : ∀ j : Fin N', b (ix2 (0 : Fin 1) ⟨off + j.val, hoff j⟩) = b' (ix1 j)) :
    extractStridedSlice ⟨2, ![M, N']⟩ ![0, off] (affine2 A W b) h = affine A W' b' := by
  funext i
  obtain ⟨p, j, rfl⟩ : ∃ (p : Fin M) (j : Fin N'), i = ix2 p j := ⟨i 0, i 1, eq_ix2 i⟩
  rw [slice_cols_apply (affine2 A W b) off h p j (hoff j)]
  exact affine2_cols A W b W' b' (fun j => ⟨off + j.val, hoff j⟩) hW hb p j

/-- A concatenation of matrices along the columns, read at an entry of piece k, whose columns start at column pre. -/
theorem concat_cols_apply {n₁ : ℕ} (xs : List ((s : Shape) × (s.Idx → EReal)))
    (h : Shape.Concatenates (xs.map (·.1)) ⟨2, ![K, N]⟩ (1 : Fin 2))
    (k : ℕ) (hk : k < xs.length) (x₁ : Mat K n₁) (hxk : xs[k] = ⟨⟨2, ![K, n₁]⟩, x₁⟩) (pre : ℕ)
    (hpre : (((xs.take k).map (·.1)).map fun s => if h : s.rank = (⟨2, ![K, N]⟩ : Shape).rank then s.size ((1 : Fin 2).cast h.symm) else 0).sum = pre)
    (r : Fin K) (j : Fin n₁) (hj : pre + j.val < N) :
    concatenate ⟨2, ![K, N]⟩ (1 : Fin 2) xs h (ix2 r ⟨pre + j.val, hj⟩) = x₁ (ix2 r j) :=
  concatenate_apply_piece (1 : Fin 2) xs h (ix2 r ⟨pre + j.val, hj⟩) k hk ⟨2, ![K, n₁]⟩ x₁ hxk rfl pre hpre (ix2 r j)
    (fun b hb => by
      match b with
      | ⟨0, _⟩ => rfl
      | ⟨1, _⟩ => exact absurd rfl hb)
    rfl

/-- A concatenation of vectors, read at an entry of piece k, whose entries start at entry pre. -/
theorem concat_vec_apply {n₁ : ℕ} (xs : List ((s : Shape) × (s.Idx → EReal)))
    (h : Shape.Concatenates (xs.map (·.1)) ⟨1, ![N]⟩ (0 : Fin 1))
    (k : ℕ) (hk : k < xs.length) (x₁ : Row n₁) (hxk : xs[k] = ⟨⟨1, ![n₁]⟩, x₁⟩) (pre : ℕ)
    (hpre : (((xs.take k).map (·.1)).map fun s => if h : s.rank = (⟨1, ![N]⟩ : Shape).rank then s.size ((0 : Fin 1).cast h.symm) else 0).sum = pre)
    (j : Fin n₁) (hj : pre + j.val < N) :
    concatenate ⟨1, ![N]⟩ (0 : Fin 1) xs h (ix1 ⟨pre + j.val, hj⟩) = x₁ (ix1 j) :=
  concatenate_apply_piece (0 : Fin 1) xs h (ix1 ⟨pre + j.val, hj⟩) k hk ⟨1, ![n₁]⟩ x₁ hxk rfl pre hpre (ix1 j)
    (fun b hb => by
      match b with
      | ⟨0, _⟩ => exact absurd rfl hb)
    rfl

/-- A vector cast to a one-row matrix, read at an entry of its one row. -/
theorem row_of_vec_apply (v : Row N) (h : (⟨1, ![N]⟩ : Shape).ShapeCasts ⟨2, ![1, N]⟩) (q : Fin N) :
    shapeCast ⟨2, ![1, N]⟩ v h (ix2 (0 : Fin 1) q) = v (ix1 q) := by
  refine (shapeCast_addUnit_apply ![N] v h (ix2 (0 : Fin 1) q)).trans (congrArg v (funext fun a => ?_))
  match a with
  | ⟨0, _⟩ => rfl

end Cert.Dense

end
-- ==== Proof.LibAccumHead.lean ====
/-
  A product accumulated over stretches of the contracted axis, and a two-layer rectified head, on the extended
  reals, entry by entry; generic in all sizes.

  The network is two rectified affine layers followed by an affine head:
  out = max(max(X·W1 + b1, 0)·W2 + b2, 0)·W3 + b3. Three facts about it are stated here.

  1. The first product can be accumulated over consecutive stretches of the contracted axis. Entry (r, q) of X·W1
     is the sum of the terms X(r, n)·W1(n, q) over n < K; the sum of the first n0 + b terms is the sum of the first
     n0 terms plus the product of the block of X on columns n0 … n0 + b − 1 with the block of W1 on those rows.
     Only commutativity and associativity of the sum are used, so nothing is asked of the entries.
  2. Entry (p, q) of the head reads row p of X·W1 only, so the head computed on a block of rows of X·W1 is the
     block of rows of the head of the whole array.
  3. A column of the head reads that column of W3 and that entry of b3 only, so a slice of columns of the head
     with several weight matrices set side by side is the head with the one matrix on those columns.
-/
import proofs.«156846_j60997125537856_2_alg».proof.Proof.LibFusedLayer
import proofs.«156846_j60997125537856_2_alg».proof.Proof.LibAffineCols

noncomputable section

open scoped BigOperators

namespace Cert.BoxHead

open Cert.Dense Cert.Gcn Cert.Fused Idealize.ShloMosaic Idealize.ShloMosaic.ValueIdx

variable {M K N : ℕ}

/-! ## The first product, a stretch of the contracted axis at a time -/

/-- Term n of entry (r, q) of the product X·W: X(r, n)·W(n, q), and zero past the contracted axis. -/
def term (X : Mat M K) (W : Mat K N) (r : Fin M) (q : Fin N) (n : ℕ) : EReal :=
  if h : n < K then X (ix2 r ⟨n, h⟩) * W (ix2 ⟨n, h⟩ q) else 0

/-- The sum of the first n terms of entry (r, q). -/
def partialSum (X : Mat M K) (W : Mat K N) (r : Fin M) (q : Fin N) (n : ℕ) : EReal :=
  ∑ k ∈ Finset.range n, term X W r q k

theorem partialSum_zero (X : Mat M K) (W : Mat K N) (r : Fin M) (q : Fin N) : partialSum X W r q 0 = 0 :=
  Finset.sum_range_zero _

/-- The first n + b terms are the first n and then the b that follow. -/
theorem partialSum_add (X : Mat M K) (W : Mat K N) (r : Fin M) (q : Fin N) (n b : ℕ) :
    partialSum X W r q (n + b) = partialSum X W r q n + ∑ j ∈ Finset.range b, term X W r q (n + j) :=
  Finset.sum_range_add _ _ _

/-- All K terms: the entry of the product. -/
theorem partialSum_all (X : Mat M K) (W : Mat K N) (r : Fin M) (q : Fin N) :
    partialSum X W r q K = mm X W (ix2 r q) := by
  unfold partialSum mm
  rw [Finset.sum_range]
  refine Finset.sum_congr rfl fun k _ => ?_
  unfold term
  rw [dif_pos k.isLt]
  rfl

/-- The product of a block of X on columns n0 … n0 + b − 1 of row r with the block of W on rows n0 … n0 + b − 1,
    at entry (p, q), is the sum of the terms n0 … n0 + b − 1 of entry (r, q). -/
theorem mm_stretch {Mb b : ℕ} (X : Mat M K) (W : Mat K N) (bx : Mat Mb b) (bw : Mat b N) (n0 : ℕ) (hn : n0 + b ≤ K)
    (p : Fin Mb) (r : Fin M) (q : Fin N)
    (hx : ∀ (j : Fin b) (h : n0 + j.val < K), bx (ix2 p j) = X (ix2 r ⟨n0 + j.val, h⟩))
    (hw : ∀ (j : Fin b) (h : n0 + j.val < K), bw (ix2 j q) = W (ix2 ⟨n0 + j.val, h⟩ q)) :
    mm bx bw (ix2 p q) = ∑ j ∈ Finset.range b, term X W r q (n0 + j) := by
  unfold mm
  rw [Finset.sum_range]
  refine Finset.sum_congr rfl fun j _ => ?_
  have h : n0 + j.val < K := by have := j.isLt; omega
  unfold term
  rw [dif_pos h, ← hx j h, ← hw j h]
  rfl

/-- One step of the accumulation: an accumulator holding the first n0 terms, plus the product of the next blocks,
    holds the first n0 + b terms. -/
theorem accumulate_step {Mb b : ℕ} (X : Mat M K) (W : Mat K N) (acc : EReal) (bx : Mat Mb b) (bw : Mat b N) (n0 : ℕ)
    (hn : n0 + b ≤ K) (p : Fin Mb) (r : Fin M) (q : Fin N)
    (hacc : acc = partialSum X W r q n0)
    (hx : ∀ (j : Fin b) (h : n0 + j.val < K), bx (ix2 p j) = X (ix2 r ⟨n0 + j.val, h⟩))
    (hw : ∀ (j : Fin b) (h : n0 + j.val < K), bw (ix2 j q) = W (ix2 ⟨n0 + j.val, h⟩ q)) :
    acc + mm bx bw (ix2 p q) = partialSum X W r q (n0 + b) := by
  rw [partialSum_add, hacc, mm_stretch X W bx bw n0 hn p r q hx hw]

/-! ## The head -/

variable {H H2 O O' : ℕ}

/-- The head on the whole array: two rectified affine layers on the product Y = X·W1, then an affine layer. -/
def head (Y : Mat M H) (b1 : Mat 1 H) (W2 : Mat H H2) (b2 : Mat 1 H2) (W3 : Mat H2 O) (b3 : Mat 1 O) : Mat M O :=
  actMmBias (actMm Y b1 W2) b2 W3 b3

/-- The head of a block of rows of Y is the block of rows of the head of Y: entry j of the block's head is entry i of
    the whole head when i is j moved down by r0 rows. -/
theorem head_block {Mb : ℕ} (Y : Mat M H) (acc : Mat Mb H) (b1 : Mat 1 H) (W2 : Mat H H2) (b2 : Mat 1 H2) (W3 : Mat H2 O)
    (b3 : Mat 1 O) (r0 : ℕ)
    (hacc : ∀ (y : (⟨2, ![Mb, H]⟩ : Shape).Idx) (z : (⟨2, ![M, H]⟩ : Shape).Idx),
      (z 0).val = r0 + (y 0).val → (z 1).val = (y 1).val → acc y = Y z)
    (j : (⟨2, ![Mb, O]⟩ : Shape).Idx) (i : (⟨2, ![M, O]⟩ : Shape).Idx)
    (hi0 : (i 0).val = r0 + (j 0).val) (hi1 : (i 1).val = (j 1).val) :
    head acc b1 W2 b2 W3 b3 j = head Y b1 W2 b2 W3 b3 i :=
  actMmBias_block (actMm Y b1 W2) (actMm acc b1 W2) b2 W3 b3 r0 j i
    (fun y z h0 h1 => actMm_block Y acc b1 W2 r0 y z hacc h0 h1) hi0 hi1

/-- A slice of columns off … off + O' − 1 of the head whose last weight matrix and bias row restrict, on those
    columns, to W' and b', is the head with W' and b'. -/
theorem slice_head (Y : Mat M H) (b1 : Mat 1 H) (W2 : Mat H H2) (b2 : Mat 1 H2) (W3 : Mat H2 O) (b3 : Mat 1 O)
    (W' : Mat H2 O') (b' : Row O') (off : ℕ) (hoff : ∀ j : Fin O', off + j.val < O)
    (h : (⟨2, ![M, O]⟩ : Shape).Slices ![0, off] ⟨2, ![M, O']⟩)
    (hW : ∀ k (j : Fin O'), W3 (ix2 k ⟨off + j.val, hoff j⟩) = W' (ix2 k j))
    (hb : ∀ j : Fin O', b3 (ix2 (0 : Fin 1) ⟨off + j.val, hoff j⟩) = b' (ix1 j)) :
    extractStridedSlice ⟨2, ![M, O']⟩ ![0, off] (head Y b1 W2 b2 W3 b3) h = head Y b1 W2 b2 W' (rowOf b') := by
  have e := slice_affine2 (biasRelu (actMm Y b1 W2) b2) W3 b3 W' b' off hoff h hW hb
  have e2 := affine_eq_affine2 (biasRelu (actMm Y b1 W2) b2) W' b' (rowOf b') (fun _ => rfl)
  exact e.trans e2.symm

end Cert.BoxHead

end
-- ==== Proof.Payloads.lean ====
/-
  The body's three stored values on the extended reals.

  The cleared accumulator is zero at every entry. One accumulation step leaves the accumulator plus the product of the
  two blocks. The last step's output block is the head of the accumulator: bias row and rectifier, product, bias row
  and rectifier, product, bias row. A change of float format is the identity on the extended reals and each product
  into a zero accumulator is the finite sum over the contracted axis, so these are the specification's functions.
-/
import proofs.«156846_j60997125537856_2_alg».proof.Proof.Gen.KernelIdeal.Skeleton
import proofs.«156846_j60997125537856_2_alg».proof.Proof.LibAccumHead

noncomputable section

open scoped BigOperators

namespace Cert.KernelIdeal.BoxValue

open Cert.KernelIdeal Cert.KernelIdeal.Gen Cert.Dense Cert.Gcn Cert.Fused Cert.BoxHead
open Idealize.ShloMosaic Idealize.ShloMosaic.ValueIdx

/-! ## The two forms, generic in the sizes -/

section Forms

variable {M K N H H2 O : ℕ}

/-- The accumulator plus the product of a block changed to the narrow format with a block already in it. -/
theorem acc_form (x0 : FVec Ideal ⟨2, ![M, K]⟩ .f32) (acc : FVec Ideal ⟨2, ![M, N]⟩ .f32) (x1 : FVec Ideal ⟨2, ![K, N]⟩ .bf16)
    (ht : (FTy.bf16).bits < (FTy.f32).bits) (h1 : (⟨2, ![K, N]⟩ : Shape).ShapeCasts ⟨2, ![K, N]⟩)
    (h2 : (⟨2, ![M, N]⟩ : Shape).ShapeCasts ⟨2, ![M, N]⟩) :
    shapeCast ⟨2, ![M, N]⟩ (addf acc (matmul (DotDims.plain M K N) none (truncf .bf16 x0 ht) (shapeCast ⟨2, ![K, N]⟩ x1 h1)
        (constant (F := Ideal) ⟨2, ![M, N]⟩ .f32 0x00000000#32))) h2
      = addf acc (mm x0 x1) := by
  rw [shapeCast_self, shapeCast_self, matmul_plain_zero]
  rfl

/-- Bias row and rectifier, product, bias row and rectifier, product, bias row: the head. -/
theorem head_form (acc : FVec Ideal ⟨2, ![M, H]⟩ .f32) (b1 : FVec Ideal ⟨2, ![1, H]⟩ .f32) (w2 : FVec Ideal ⟨2, ![H, H2]⟩ .bf16)
    (b2 : FVec Ideal ⟨2, ![1, H2]⟩ .f32) (w3 : FVec Ideal ⟨2, ![H2, O]⟩ .bf16) (b3 : FVec Ideal ⟨2, ![1, O]⟩ .f32)
    (ht : (FTy.bf16).bits < (FTy.f32).bits)
    (h1 : (⟨2, ![1, H]⟩ : Shape).ShapeCasts ⟨2, ![1, H]⟩) (hb1 : (⟨2, ![1, H]⟩ : Shape).Broadcasts ⟨2, ![M, H]⟩)
    (hw2 : (⟨2, ![H, H2]⟩ : Shape).ShapeCasts ⟨2, ![H, H2]⟩)
    (h2 : (⟨2, ![1, H2]⟩ : Shape).ShapeCasts ⟨2, ![1, H2]⟩) (hb2 : (⟨2, ![1, H2]⟩ : Shape).Broadcasts ⟨2, ![M, H2]⟩)
    (hw3 : (⟨2, ![H2, O]⟩ : Shape).ShapeCasts ⟨2, ![H2, O]⟩)
    (h3 : (⟨2, ![1, O]⟩ : Shape).ShapeCasts ⟨2, ![1, O]⟩) (hb3 : (⟨2, ![1, O]⟩ : Shape).Broadcasts ⟨2, ![M, O]⟩) :
    addf (matmul (DotDims.plain M H2 O) none
        (truncf .bf16 (maximumf (addf (matmul (DotDims.plain M H H2) none
            (truncf .bf16 (maximumf (addf acc (broadcastTo ⟨2, ![M, H]⟩ (shapeCast ⟨2, ![1, H]⟩ b1 h1) hb1))
              (broadcast ⟨2, ![M, H]⟩ (Scalar.ofBits (F := Ideal) .f32 0x00000000#32))) ht)
            (shapeCast ⟨2, ![H, H2]⟩ w2 hw2) (constant (F := Ideal) ⟨2, ![M, H2]⟩ .f32 0x00000000#32))
          (broadcastTo ⟨2, ![M, H2]⟩ (shapeCast ⟨2, ![1, H2]⟩ b2 h2) hb2))
          (broadcast ⟨2, ![M, H2]⟩ (Scalar.ofBits (F := Ideal) .f32 0x00000000#32))) ht)
        (shapeCast ⟨2, ![H2, O]⟩ w3 hw3) (constant (F := Ideal) ⟨2, ![M, O]⟩ .f32 0x00000000#32))
      (broadcastTo ⟨2, ![M, O]⟩ (shapeCast ⟨2, ![1, O]⟩ b3 h3) hb3)
      = head acc b1 w2 b2 w3 b3 := by
  rw [addf_broadcastTo_row acc b1 h1 hb1, maximumf_splat_zero, shapeCast_self w2, matmul_plain_zero,
    addf_broadcastTo_row _ b2 h2 hb2, maximumf_splat_zero, shapeCast_self w3, matmul_plain_zero,
    addf_broadcastTo_row _ b3 h3 hb3]
  rfl

end Forms

/-! ## The printed payloads -/

/-- The cleared accumulator is zero at every entry. -/
theorem pay1_apply (j : S512x1024.Idx) : (k0_pay1 (F := Ideal)) j = 0 := by
  unfold k0_pay1
  rw [shapeCast_self]
  show Ideal.ofBits .f32 0x00000000#32 = 0
  exact Ideal.ofBits_zero_f32

/-- One accumulation step. -/
theorem pay2_eq (x0 : FVec Ideal S512x1792 .f32) (acc : FVec Ideal S512x1024 .f32) (x1 : FVec Ideal S1792x1024 .bf16) :
    k0_pay2 (F := Ideal) x0 acc x1 = addf acc (mm (M := 512) (K := 1792) (N := 1024) x0 x1) := by
  unfold k0_pay2
  exact acc_form (M := 512) (K := 1792) (N := 1024) x0 acc x1 _ _ _

/-- The output block: the head of the accumulator. -/
theorem pay3_eq (acc : FVec Ideal S512x1024 .f32) (b1 : FVec Ideal S1x1024 .f32) (w2 : FVec Ideal S1024x1024 .bf16)
    (b2 : FVec Ideal S1x1024 .f32) (w3 : FVec Ideal S1024x16 .bf16) (b3 : FVec Ideal S1x16 .f32) :
    k0_pay3 (F := Ideal) acc b1 w2 b2 w3 b3
      = head (M := 512) (H := 1024) (H2 := 1024) (O := 16) acc b1 w2 b2 w3 b3 := by
  unfold k0_pay3
  exact head_form (M := 512) (H := 1024) (H2 := 1024) (O := 16) acc b1 w2 b2 w3 b3 _ _ _ _ _ _ _ _ _

/-! ## One step of the sweep, at an entry

Stated over plain variables for the blocks; the hypotheses say which entries of the whole arrays the blocks hold. -/

/-- If the accumulator's entry (p, q) holds the first 1792·s terms of entry (r, q) of X·W, and the two blocks are the
    stretch 1792·s … 1792·s + 1791 of row r of X and of the rows of W, then after the step it holds the first
    1792·s + 1792 terms. -/
theorem step_value (X : Mat 8192 12544) (W : Mat 12544 1024) (x0 : FVec Ideal S512x1792 .f32) (x1 : FVec Ideal S1792x1024 .bf16)
    (acc : FVec Ideal S512x1024 .f32) (s : ℕ) (hs : s < 7) (p : Fin 512) (q : Fin 1024) (r : Fin 8192)
    (hacc : acc (ix2 p q) = partialSum X W r q (1792 * s))
    (hx : ∀ (j : Fin 1792) (h : 1792 * s + j.val < 12544), x0 (ix2 p j) = X (ix2 r ⟨1792 * s + j.val, h⟩))
    (hw : ∀ (j : Fin 1792) (h : 1792 * s + j.val < 12544), x1 (ix2 j q) = W (ix2 ⟨1792 * s + j.val, h⟩ q)) :
    k0_pay2 (F := Ideal) x0 acc x1 (ix2 p q) = partialSum X W r q (1792 * s + 1792) := by
  rw [pay2_eq]
  show acc (ix2 p q) + mm (M := 512) (K := 1792) (N := 1024) x0 x1 (ix2 p q) = _
  exact accumulate_step X W (acc (ix2 p q)) x0 x1 (1792 * s) (by omega) p r q hacc hx hw

/-- The first step starts from the cleared accumulator. -/
theorem first_value (X : Mat 8192 12544) (W : Mat 12544 1024) (x0 : FVec Ideal S512x1792 .f32) (x1 : FVec Ideal S1792x1024 .bf16)
    (p : Fin 512) (q : Fin 1024) (r : Fin 8192)
    (hx : ∀ (j : Fin 1792) (h : 1792 * 0 + j.val < 12544), x0 (ix2 p j) = X (ix2 r ⟨1792 * 0 + j.val, h⟩))
    (hw : ∀ (j : Fin 1792) (h : 1792 * 0 + j.val < 12544), x1 (ix2 j q) = W (ix2 ⟨1792 * 0 + j.val, h⟩ q)) :
    k0_pay2 (F := Ideal) x0 (k0_pay1 (F := Ideal)) x1 (ix2 p q) = partialSum X W r q (1792 * 0 + 1792) :=
  step_value X W x0 x1 (k0_pay1 (F := Ideal)) 0 (by omega) p q r
    ((pay1_apply (ix2 p q)).trans (partialSum_zero X W r q).symm) hx hw

end Cert.KernelIdeal.BoxValue

end
-- ==== Proof.Blocks.lean ====
/-
  The windows' blocks read at an entry.

  The grid has 16 row tiles and, inside each, 7 steps over the contracted axis; point t is step t mod 7 of tile
  t div 7. At that point the first operand's block is rows 512·(t div 7) … of columns 1792·(t mod 7) … of the array,
  the first weight matrix's block is rows 1792·(t mod 7) … of it, and every other input window holds its whole array.
-/
import proofs.«156846_j60997125537856_2_alg».proof.Proof.Gen.KernelIdeal.Frame
import Idealize.ShloMosaic.Lib.Pipeline.Value

noncomputable section

open Idealize.ShloMosaic Idealize.ShloMosaic.TcCoe Idealize.SL.Sem

namespace Cert.KernelIdeal.BoxValue

open Cert.KernelIdeal Cert.KernelIdeal.Gen

variable {F : FTy → Type} [FloatOps F]
variable (m : (ℓ : Loc nD τ sig) → Buf (Elt F) ℓ)

/-- The index maps over the grid. -/
theorem idx_facts : ∀ t : Fin cfg0.N,
    win0_0.index t 0 = t.val / 7 ∧ win0_0.index t 1 = t.val % 7
    ∧ win0_1.index t 0 = t.val % 7 ∧ win0_1.index t 1 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0
    ∧ win0_7.index t 0 = t.val / 7 ∧ win0_7.index t 1 = 0 :=
  (by decide +kernel : ∀ t : Fin grid0.N, _)

/-- The first operand's block: rows 512·(t div 7) + y₀, columns 1792·(t mod 7) + y₁. -/
theorem iblk_x (c : Dev nD) (t : Fin cfg0.N) (y : S512x1792.Idx) (z : S8192x12544.Idx)
    (h0 : (z 0).val = 512 * (t.val / 7) + (y 0).val) (h1 : (z 1).val = 1792 * (t.val % 7) + (y 1).val) :
    (iblk m c 0 t : Vec F S512x1792 .f32) y = (V m c main_arg0 : S8192x12544.Idx → Elt F .f32) z := by
  have hi := idx_facts t
  unfold iblk
  rw [View.read_apply]
  show V m c main_arg0 _ = V m c main_arg0 _
  refine congrArg (V m c main_arg0) (funext fun a => Fin.ext ?_)
  match a with
  | ⟨0, _⟩ => show win0_0.index t 0 * 512 + 1 * (y 0).val = (z 0).val; rw [hi.1, h0]; omega
  | ⟨1, _⟩ => show win0_0.index t 1 * 1792 + 1 * (y 1).val = (z 1).val; rw [hi.2.1, h1]; omega

/-- The first weight matrix's block: rows 1792·(t mod 7) + y₀. -/
theorem iblk_w1 (c : Dev nD) (t : Fin cfg0.N) (y : S1792x1024.Idx) (z : S12544x1024.Idx)
    (h0 : (z 0).val = 1792 * (t.val % 7) + (y 0).val) (h1 : (z 1).val = (y 1).val) :
    (iblk m c 1 t : Vec F S1792x1024 .bf16) y = (V m c main_v0 : S12544x1024.Idx → Elt F .bf16) z := by
  have hi := idx_facts t
  unfold iblk
  rw [View.read_apply]
  show V m c main_v0 _ = V m c main_v0 _
  refine congrArg (V m c main_v0) (funext fun a => Fin.ext ?_)
  match a with
  | ⟨0, _⟩ => show win0_1.index t 0 * 1792 + 1 * (y 0).val = (z 0).val; rw [hi.2.2.1, h0]; omega
  | ⟨1, _⟩ => show win0_1.index t 1 * 1024 + 1 * (y 1).val = (z 1).val; rw [hi.2.2.2.1, h1]; omega

/-- The windows that hold their whole arrays. -/
theorem iblk_b1 (c : Dev nD) (t : Fin cfg0.N) : (iblk m c 2 t : Vec F S1x1024 .f32) = (V m c main_v4 : S1x1024.Idx → Elt F .f32) := by
  have hi := idx_facts t
  funext y
  unfold iblk
  rw [View.read_apply]
  show V m c main_v4 _ = V m c main_v4 _
  refine congrArg (V m c main_v4) (funext fun a => Fin.ext ?_)
  match a with
  | ⟨0, _⟩ => show win0_2.index t 0 * 1 + 1 * (y 0).val = (y 0).val; rw [hi.2.2.2.2.1]; omega
  | ⟨1, _⟩ => show win0_2.index t 1 * 1024 + 1 * (y 1).val = (y 1).val; rw [hi.2.2.2.2.2.1]; omega

theorem iblk_w2 (c : Dev nD) (t : Fin cfg0.N) : (iblk m c 3 t : Vec F S1024x1024 .bf16) = (V m c main_v1 : S1024x1024.Idx → Elt F .bf16) := by
  have hi := idx_facts t
  funext y
  unfold iblk
  rw [View.read_apply]
  show V m c main_v1 _ = V m c main_v1 _
  refine congrArg (V m c main_v1) (funext fun a => Fin.ext ?_)
  match a with
  | ⟨0, _⟩ => show win0_3.index t 0 * 1024 + 1 * (y 0).val = (y 0).val; rw [hi.2.2.2.2.2.2.1]; omega
  | ⟨1, _⟩ => show win0_3.index t 1 * 1024 + 1 * (y 1).val = (y 1).val; rw [hi.2.2.2.2.2.2.2.1]; omega

theorem iblk_b2 (c : Dev nD) (t : Fin cfg0.N) : (iblk m c 4 t : Vec F S1x1024 .f32) = (V m c main_v5 : S1x1024.Idx → Elt F .f32) := by
  have hi := idx_facts t
  funext y
  unfold iblk
  rw [View.read_apply]
  show V m c main_v5 _ = V m c main_v5 _
  refine congrArg (V m c main_v5) (funext fun a => Fin.ext ?_)
  match a with
  | ⟨0, _⟩ => show win0_4.index t 0 * 1 + 1 * (y 0).val = (y 0).val; rw [hi.2.2.2.2.2.2.2.2.1]; omega
  | ⟨1, _⟩ => show win0_4.index t 1 * 1024 + 1 * (y 1).val = (y 1).val; rw [hi.2.2.2.2.2.2.2.2.2.1]; omega

theorem iblk_w3 (c : Dev nD) (t : Fin cfg0.N) : (iblk m c 5 t : Vec F S1024x16 .bf16) = (V m c main_v3 : S1024x16.Idx → Elt F .bf16) := by
  have hi := idx_facts t
  funext y
  unfold iblk
  rw [View.read_apply]
  show V m c main_v3 _ = V m c main_v3 _
  refine congrArg (V m c main_v3) (funext fun a => Fin.ext ?_)
  match a with
  | ⟨0, _⟩ => show win0_5.index t 0 * 1024 + 1 * (y 0).val = (y 0).val; rw [hi.2.2.2.2.2.2.2.2.2.2.1]; omega
  | ⟨1, _⟩ => show win0_5.index t 1 * 16 + 1 * (y 1).val = (y 1).val; rw [hi.2.2.2.2.2.2.2.2.2.2.2.1]; omega

theorem iblk_b3 (c : Dev nD) (t : Fin cfg0.N) : (iblk m c 6 t : Vec F S1x16 .f32) = (V m c main_v7 : S1x16.Idx → Elt F .f32) := by
  have hi := idx_facts t
  funext y
  unfold iblk
  rw [View.read_apply]
  show V m c main_v7 _ = V m c main_v7 _
  refine congrArg (V m c main_v7) (funext fun a => Fin.ext ?_)
  match a with
  | ⟨0, _⟩ => show win0_6.index t 0 * 1 + 1 * (y 0).val = (y 0).val; rw [hi.2.2.2.2.2.2.2.2.2.2.2.2.1]; omega
  | ⟨1, _⟩ => show win0_6.index t 1 * 16 + 1 * (y 1).val = (y 1).val; rw [hi.2.2.2.2.2.2.2.2.2.2.2.2.2.1]; omega

end Cert.KernelIdeal.BoxValue

end
-- ==== Proof.Accum.lean ====
/-
  The accumulator after every point, and the output block at a tile's last step.

  By induction on the point: after step s of row tile i, entry (p, q) of the accumulator is the sum of the first
  1792·(s + 1) terms of entry (512·i + p, q) of the product of the first operand with the first weight matrix. At the
  tile's last step that is the whole entry, and the block stored into the output is the head of those 512 rows of
  the product — rows 512·i … 512·i + 511 of the head of the whole product.
-/
import proofs.«156846_j60997125537856_2_alg».proof.Proof.Pieces
import proofs.«156846_j60997125537856_2_alg».proof.Proof.Payloads
import proofs.«156846_j60997125537856_2_alg».proof.Proof.Blocks

noncomputable section

open scoped BigOperators

open Idealize.ShloMosaic Idealize.ShloMosaic.TcCoe Idealize.SL.Sem

namespace Cert.KernelIdeal.BoxValue

open Cert.KernelIdeal Cert.KernelIdeal.Gen Cert.Dense Cert.BoxHead Idealize.ShloMosaic.ValueIdx

variable (m : (ℓ : Loc nD τ sig) → Buf (Elt Ideal) ℓ)

/-- The first operand and the first weight matrix as the region finds them. -/
abbrev Xa (c : Dev nD) : Mat 8192 12544 := V m c main_arg0
abbrev W1a (c : Dev nD) : Mat 12544 1024 := V m c main_v0

/-- The array the output window ends holding: the head of the whole product, over the arrays the region finds. -/
def result (c : Dev nD) : Mat 8192 16 :=
  head (mm (Xa m c) (W1a m c)) (V m c main_v4) (V m c main_v1) (V m c main_v5) (V m c main_v3) (V m c main_v7)

/-- The two blocks at point t are the stretch 1792·(t mod 7) … of row r of the first operand and of the rows of the
    first weight matrix, when r is row p of tile t div 7. -/
theorem blocks_at (c : Dev nD) (t : Fin cfg0.N) (s : ℕ) (hs : s = t.val % 7) (p : Fin 512) (q : Fin 1024) (r : Fin 8192)
    (hr : r.val = 512 * (t.val / 7) + p.val) :
    (∀ (j : Fin 1792) (h : 1792 * s + j.val < 12544),
        (iblk m c 0 t : FVec Ideal S512x1792 .f32) (ix2 p j) = Xa m c (ix2 r ⟨1792 * s + j.val, h⟩))
    ∧ (∀ (j : Fin 1792) (h : 1792 * s + j.val < 12544),
        (iblk m c 1 t : FVec Ideal S1792x1024 .bf16) (ix2 j q) = W1a m c (ix2 ⟨1792 * s + j.val, h⟩ q)) := by
  subst hs
  exact ⟨fun j h => iblk_x m c t (ix2 p j) (ix2 r ⟨1792 * (t.val % 7) + j.val, h⟩) hr rfl,
    fun j h => iblk_w1 m c t (ix2 j q) (ix2 ⟨1792 * (t.val % 7) + j.val, h⟩ q) rfl rfl⟩

/-- A tile's first step. -/
theorem acc_step_first (c : Dev nD) (t : Fin cfg0.N) (h0 : t.val % 7 = 0) (p : Fin 512) (q : Fin 1024) (r : Fin 8192)
    (hr : r.val = 512 * (t.val / 7) + p.val) :
    (outsAt0 m c t.val t.isLt).2 (ix2 p q) = partialSum (Xa m c) (W1a m c) r q (1792 * (t.val % 7) + 1792) := by
  have h1 : ¬t.val % 7 = 6 := by omega
  obtain ⟨hx, hw⟩ := blocks_at m c t 0 h0.symm p q r hr
  refine (congrFun (congrArg Prod.snd (outsAt0_A m c t h0 h1)) (ix2 p q)).trans ?_
  dsimp only
  refine (congrFun (acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) (iblk m c 6 t)) (ix2 p q)).trans ?_
  rw [h0]
  exact first_value (Xa m c) (W1a m c) (iblk m c 0 t) (iblk m c 1 t) p q r hx hw

/-- A later step, given what the step before left. -/
theorem acc_step_later (c : Dev nD) (t : Fin cfg0.N) (h0 : ¬t.val % 7 = 0) (p : Fin 512) (q : Fin 1024) (r : Fin 8192)
    (hr : r.val = 512 * (t.val / 7) + p.val)
    (hprev : (outsAt0 m c (t.val - 1) (Nat.lt_of_le_of_lt (Nat.sub_le _ _) t.isLt)).2 (ix2 p q)
      = partialSum (Xa m c) (W1a m c) r q (1792 * (t.val % 7))) :
    (outsAt0 m c t.val t.isLt).2 (ix2 p q) = partialSum (Xa m c) (W1a m c) r q (1792 * (t.val % 7) + 1792) := by
  have hs : t.val % 7 < 7 := Nat.mod_lt _ (by omega)
  obtain ⟨hx, hw⟩ := blocks_at m c t (t.val % 7) rfl p q r hr
  by_cases h1 : t.val % 7 = 6
  · refine (congrFun (congrArg Prod.snd (outsAt0_C m c t h0 h1)) (ix2 p q)).trans ?_
    dsimp only
    refine (congrFun (acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p q)).trans ?_
    exact step_value (Xa m c) (W1a m c) (iblk m c 0 t) (iblk m c 1 t) _ (t.val % 7) hs p q r hprev hx hw
  · refine (congrFun (congrArg Prod.snd (outsAt0_B m c t h0 h1)) (ix2 p q)).trans ?_
    dsimp only
    refine (congrFun (acc_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p q)).trans ?_
    exact step_value (Xa m c) (W1a m c) (iblk m c 0 t) (iblk m c 1 t) _ (t.val % 7) hs p q r hprev hx hw

/-- The accumulator after every point. -/
theorem acc_inv (c : Dev nD) : ∀ (n : ℕ) (h : n < cfg0.N) (p : Fin 512) (q : Fin 1024) (r : Fin 8192),
    r.val = 512 * (n / 7) + p.val →
    (outsAt0 m c n h).2 (ix2 p q) = partialSum (Xa m c) (W1a m c) r q (1792 * (n % 7) + 1792)
  | 0, h, p, q, r, hr => acc_step_first m c ⟨0, h⟩ rfl p q r hr
  | n + 1, h, p, q, r, hr => by
    by_cases h0 : (n + 1) % 7 = 0
    · exact acc_step_first m c ⟨n + 1, h⟩ h0 p q r hr
    · have hr' : r.val = 512 * (n / 7) + p.val := by omega
      have e : 1792 * (n % 7) + 1792 = 1792 * ((n + 1) % 7) := by omega
      exact acc_step_later m c ⟨n + 1, h⟩ h0 p q r hr
        ((acc_inv c n (Nat.lt_of_succ_lt h) p q r hr').trans (congrArg (partialSum (Xa m c) (W1a m c) r q) e))

/-- At a tile's last step the accumulator holds those 512 rows of the whole product. -/
theorem acc_full (c : Dev nD) (t : Fin cfg0.N) (h1 : t.val % 7 = 6)
    (y : (⟨2, ![512, 1024]⟩ : Shape).Idx) (z : (⟨2, ![8192, 1024]⟩ : Shape).Idx)
    (hz0 : (z 0).val = 512 * (t.val / 7) + (y 0).val) (hz1 : (z 1).val = (y 1).val) :
    (outsAt0 m c t.val t.isLt).2 y = mm (Xa m c) (W1a m c) z := by
  obtain ⟨p, q, rfl⟩ : ∃ (p : Fin 512) (q : Fin 1024), y = ix2 p q := ⟨y 0, y 1, eq_ix2 y⟩
  obtain ⟨r, q', rfl⟩ : ∃ (r : Fin 8192) (q' : Fin 1024), z = ix2 r q' := ⟨z 0, z 1, eq_ix2 z⟩
  have hq : q' = q := Fin.ext hz1
  rw [hq, acc_inv m c t.val t.isLt p q r hz0, h1]
  exact partialSum_all (Xa m c) (W1a m c) r q

/-- The block stored into the output at a tile's last step is the tile's rows of the result. -/
theorem out_value (c : Dev nD) (t : Fin cfg0.N) (h1 : t.val % 7 = 6)
    (j : (⟨2, ![512, 16]⟩ : Shape).Idx) (i : (⟨2, ![8192, 16]⟩ : Shape).Idx)
    (hi0 : (i 0).val = 512 * (t.val / 7) + (j 0).val) (hi1 : (i 1).val = (j 1).val) :
    (outsAt0 m c t.val t.isLt).1 j = result m c i := by
  have h0 : ¬t.val % 7 = 0 := by omega
  have e := outsAt0_C m c t h0 h1
  have eacc : (outsAt0 m c t.val t.isLt).2
      = k0_pay2 (F := Ideal) (iblk m c 0 t) (outsAt0 m c (t.val - 1) (Nat.lt_of_le_of_lt (Nat.sub_le _ _) t.isLt)).2 (iblk m c 1 t) := by
    rw [e]
    dsimp only
    exact acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
  refine (congrFun (congrArg Prod.fst e) j).trans ?_
  dsimp only
  refine (congrFun (out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) j).trans ?_
  rw [← eacc, pay3_eq, iblk_b1 m c t, iblk_w2 m c t, iblk_b2 m c t, iblk_w3 m c t, iblk_b3 m c t]
  exact head_block (mm (Xa m c) (W1a m c)) (outsAt0 m c t.val t.isLt).2 (V m c main_v4) (V m c main_v1) (V m c main_v5)
    (V m c main_v3) (V m c main_v7) (512 * (t.val / 7)) (fun y z hz0 hz1 => acc_full m c t h1 y z hz0 hz1) j i hi0 hi1

end Cert.KernelIdeal.BoxValue

end
-- ==== Proof.Final.lean ====
/-
  The output array after the run, and the two results.

  The output window is written back at each row tile's last step only, and there its block is the tile's 512 rows of
  the result; the sixteen tiles cover the array, so the array ends holding the result. The two values the program
  returns are the slices of columns 0 … 3 and 4 … 15 of that array.
-/
import proofs.«156846_j60997125537856_2_alg».proof.Proof.Accum
import Idealize.ShloMosaic.Lib.StableHlo.Run

noncomputable section

open Idealize.ShloMosaic Idealize.ShloMosaic.TcCoe Idealize.SL.Sem
open Idealize.ShloMosaic.Pipeline (Dat)

namespace Cert.KernelIdeal.BoxValue

open Cert.KernelIdeal Cert.KernelIdeal.Gen Cert.Dense Cert.BoxHead Idealize.ShloMosaic.ValueIdx

variable (m : (ℓ : Loc nD τ sig) → Buf (Elt Ideal) ℓ) (ρ : Dev nD → PrngReg)

/-- What a write-back writes: the point's block of the result. -/
theorem flushed_eq (c : Dev nD) (t : Fin cfg0.N) (hf : (cfg0.win 7).flush t = true) :
    (dats m 0 c).flushed 7 t = ((cfg0.win 7).blk t).view.read (Elt Ideal) (result m c) := by
  have h1 : t.val % 7 = 6 := (flush0_7 t).mp hf
  have hi := idx_facts t
  show (cfg0.win 7).cut (grid0.coords t) ((dats m 0 c).after 7 t) = _
  rw [after0_7]
  funext j
  show (outsAt0 m c t.val t.isLt).1 j = result m c (((cfg0.win 7).blk t).view.emb j)
  refine out_value m c t h1 j _ ?_ ?_
  · show win0_7.index t 0 * 512 + 1 * (j 0).val = 512 * (t.val / 7) + (j 0).val
    rw [hi.2.2.2.2.2.2.2.2.2.2.2.2.2.2.1]; omega
  · show win0_7.index t 1 * 16 + 1 * (j 1).val = (j 1).val
    rw [hi.2.2.2.2.2.2.2.2.2.2.2.2.2.2.2]; omega

/-- An index of the array is in point t's block iff each coordinate is in the block's range on its axis. -/
theorem mem_blk (t : Fin cfg0.N) (i : S8192x16.Idx) :
    i ∈ ((cfg0.win 7).blk t).view.set ↔ ∀ a : Fin 2, win0_7.index t a * S512x16.size a ≤ (i a).val ∧ (i a).val < win0_7.index t a * S512x16.size a + S512x16.size a := by
  show i ∈ ((View.whole main_v8).slice (win0_7.rect t)).set ↔ _
  rw [View.set_slice_whole, Rect.mem_set_unit]
  exact Iff.rfl

/-- Every index is in the block of its row tile's last step. -/
theorem covered (i : S8192x16.Idx) :
    ∃ t : Fin cfg0.N, (cfg0.win 7).flush t = true ∧ i ∈ ((cfg0.win 7).blk t).view.set := by
  have hN : cfg0.N = 112 := N_0
  have hi0 : (i 0).val < 8192 := (i 0).isLt
  have hi1 : (i 1).val < 16 := (i 1).isLt
  have hlt : 7 * ((i 0).val / 512) + 6 < cfg0.N := by rw [hN]; omega
  refine ⟨⟨7 * ((i 0).val / 512) + 6, hlt⟩, (flush0_7 _).mpr (by show (7 * ((i 0).val / 512) + 6) % 7 = 6; omega), ?_⟩
  have hi := idx_facts ⟨7 * ((i 0).val / 512) + 6, hlt⟩
  have e0 : win0_7.index ⟨7 * ((i 0).val / 512) + 6, hlt⟩ 0 = (7 * ((i 0).val / 512) + 6) / 7 := hi.2.2.2.2.2.2.2.2.2.2.2.2.2.2.1
  have e1 : win0_7.index ⟨7 * ((i 0).val / 512) + 6, hlt⟩ 1 = 0 := hi.2.2.2.2.2.2.2.2.2.2.2.2.2.2.2
  rw [mem_blk]
  intro a
  match a with
  | ⟨0, _⟩ =>
    show win0_7.index ⟨7 * ((i 0).val / 512) + 6, hlt⟩ 0 * 512 ≤ (i 0).val ∧ (i 0).val < win0_7.index ⟨7 * ((i 0).val / 512) + 6, hlt⟩ 0 * 512 + 512
    rw [e0]; omega
  | ⟨1, _⟩ =>
    show win0_7.index ⟨7 * ((i 0).val / 512) + 6, hlt⟩ 1 * 16 ≤ (i 1).val ∧ (i 1).val < win0_7.index ⟨7 * ((i 0).val / 512) + 6, hlt⟩ 1 * 16 + 16
    rw [e1]; omega

/-- The output window's array ends holding the result. -/
theorem final_out (c : Dev nD) : (dats m 0 c).arrAt 7 cfg0.N = result m c :=
  (dats m 0 c).arrAt_eq_of_cover 7 (result m c) (flushed_eq m c) covered

/-- The first returned value: columns 0 … 3 of the result. -/
theorem tail_logits (c : Dev nD) :
    Pipeline.afterTail₀ cfgs (dats m) 0 (V0 m) [hostOps1] c main_v9
      = extractStridedSlice S8192x4 ![0, 0] (result m c) slices_S8192x16_S8192x4_0_0 := by
  unfold Pipeline.afterTail₀
  show StableHlo.after hostOps1 _ (Proc.devRef .tc main_v9) = _
  after_results
  rw [(Pipeline.withArrays_arr spec0 launch0.win.arr_inj c _ _ 7).trans (final_out m c)]

/-- The second returned value: columns 4 … 15 of the result. -/
theorem tail_boxes (c : Dev nD) :
    Pipeline.afterTail₀ cfgs (dats m) 0 (V0 m) [hostOps1] c main_v10
      = extractStridedSlice S8192x12 ![0, 4] (result m c) slices_S8192x16_S8192x12_0_4 := by
  unfold Pipeline.afterTail₀
  show StableHlo.after hostOps1 _ (Proc.devRef .tc main_v10) = _
  after_results
  rw [(Pipeline.withArrays_arr spec0 launch0.win.arr_inj c _ _ 7).trans (final_out m c)]

/-- The run, read: the two returned values as slices of the result, the arguments unchanged. -/
theorem run : θ_run defs (onTc (τ := τ) (main (F := Ideal))) ⟨m, fun _ => 0, ρ⟩ fun r => ∀ c : Dev nD,
      r.2.mem ((c.tc : Thread nD τ).loc main_v9) = extractStridedSlice S8192x4 ![0, 0] (result m c) slices_S8192x16_S8192x4_0_0
      ∧ r.2.mem ((c.tc : Thread nD τ).loc main_v10) = extractStridedSlice S8192x12 ![0, 4] (result m c) slices_S8192x16_S8192x12_0_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v9 (Pipeline.mem_restRefs_of main_v9 (by decide) (by decide))).trans (tail_logits m c),
      ((h c).2 main_v10 (Pipeline.mem_restRefs_of main_v10 (by decide) (by decide))).trans (tail_boxes m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.BoxValue

end
-- ==== Proof.Prefix.lean ====
/-
  What the region finds in its operands' arrays.

  Before the region the program changes the three weight matrices to the narrow float format, sets the two head
  matrices side by side and the two head biases end to end, and casts each bias vector to a one-row matrix. These
  are the arrays the windows read; each is stated here as that operation of the argument arrays.
-/
import proofs.«156846_j60997125537856_2_alg».proof.Proof.Gen.KernelIdeal.Frame.Runs
import Idealize.ShloMosaic.Lib.StableHlo.Run

noncomputable section

open Idealize.ShloMosaic Idealize.ShloMosaic.TcCoe Idealize.SL.Sem

namespace Cert.KernelIdeal.BoxValue

open Cert.KernelIdeal Cert.KernelIdeal.Gen

variable {F : FTy → Type} [FloatOps F]
variable (m : (ℓ : Loc nD τ sig) → Buf (Elt F) ℓ)

/-- The first weight matrix in the narrow format. -/
theorem V_w1 (c : Dev nD) :
    (V m c main_v0 : S12544x1024.Idx → F .bf16) = truncf .bf16 (m ((c : Thread nD τ).loc main_arg1)) bitsLt_bf16_f32 := by
  show StableHlo.after hostOps0 (fun b => m (c, b)) (Proc.devRef .tc main_v0) = _
  after_results <;> rfl

/-- The second weight matrix in the narrow format. -/
theorem V_w2 (c : Dev nD) :
    (V m c main_v1 : S1024x1024.Idx → F .bf16) = truncf .bf16 (m ((c : Thread nD τ).loc main_arg3)) bitsLt_bf16_f32 := by
  show StableHlo.after hostOps0 (fun b => m (c, b)) (Proc.devRef .tc main_v1) = _
  after_results <;> rfl

/-- The two head matrices side by side, in the narrow format. -/
theorem V_w3 (c : Dev nD) :
    (V m c main_v3 : S1024x16.Idx → F .bf16)
      = truncf .bf16 (concatenate S1024x16 1 [⟨S1024x4, m ((c : Thread nD τ).loc main_arg5)⟩, ⟨S1024x12, m ((c : Thread nD τ).loc main_arg7)⟩]
          concatenates_S1024x4_S1024x12_S1024x16_d1) bitsLt_bf16_f32 := by
  show StableHlo.after hostOps0 (fun b => m (c, b)) (Proc.devRef .tc main_v3) = _
  after_results <;> rfl

/-- The first bias as a one-row matrix. -/
theorem V_b1 (c : Dev nD) :
    (V m c main_v4 : S1x1024.Idx → F .f32) = shapeCast S1x1024 (m ((c : Thread nD τ).loc main_arg2)) shapeCasts_S1024_S1x1024 := by
  show StableHlo.after hostOps0 (fun b => m (c, b)) (Proc.devRef .tc main_v4) = _
  after_results <;> rfl

/-- The second bias as a one-row matrix. -/
theorem V_b2 (c : Dev nD) :
    (V m c main_v5 : S1x1024.Idx → F .f32) = shapeCast S1x1024 (m ((c : Thread nD τ).loc main_arg4)) shapeCasts_S1024_S1x1024 := by
  show StableHlo.after hostOps0 (fun b => m (c, b)) (Proc.devRef .tc main_v5) = _
  after_results <;> rfl

/-- The two head biases end to end, as a one-row matrix. -/
theorem V_b3 (c : Dev nD) :
    (V m c main_v7 : S1x16.Idx → F .f32)
      = shapeCast S1x16 (concatenate S16 0 [⟨S4, m ((c : Thread nD τ).loc main_arg6)⟩, ⟨S12, m ((c : Thread nD τ).loc main_arg8)⟩]
          concatenates_S4_S12_S16_d0) shapeCasts_S16_S1x16 := by
  show StableHlo.after hostOps0 (fun b => m (c, b)) (Proc.devRef .tc main_v7) = _
  after_results <;> rfl

end Cert.KernelIdeal.BoxValue

end
-- ==== Proof.Bridge.lean ====
/-
  The result over the argument arrays, and its two column slices.

  The arrays the region finds are the argument arrays up to a change of float format (the identity on the extended
  reals), a cast of each bias vector to one row, and the two head matrices set side by side with their biases end
  to end. Columns 0 … 3 of the side-by-side matrix are the class matrix and columns 4 … 15 the box matrix, and
  likewise for the biases; a column of the head reads that column of the last matrix and that entry of the last
  bias only. So the slice of columns 0 … 3 of the result is the head with the class matrix and bias, and the slice
  of columns 4 … 15 is the head with the box matrix and bias.
-/
import proofs.«156846_j60997125537856_2_alg».proof.Proof.Accum
import proofs.«156846_j60997125537856_2_alg».proof.Proof.Prefix

noncomputable section

open scoped BigOperators

open Idealize.ShloMosaic Idealize.ShloMosaic.TcCoe Idealize.SL.Sem

namespace Cert.KernelIdeal.BoxValue

open Cert.KernelIdeal Cert.KernelIdeal.Gen Cert.Dense Cert.Gcn Cert.BoxHead Idealize.ShloMosaic.ValueIdx

variable (m : (ℓ : Loc nD τ sig) → Buf (Elt Ideal) ℓ)

/-- The argument arrays as matrices and rows of extended reals. -/
abbrev aX (c : Dev nD) : Mat 8192 12544 := (m ((c : Thread nD τ).loc main_arg0))
abbrev aW1 (c : Dev nD) : Mat 12544 1024 := (m ((c : Thread nD τ).loc main_arg1))
abbrev ab1 (c : Dev nD) : Row 1024 := (m ((c : Thread nD τ).loc main_arg2))
abbrev aW2 (c : Dev nD) : Mat 1024 1024 := (m ((c : Thread nD τ).loc main_arg3))
abbrev ab2 (c : Dev nD) : Row 1024 := (m ((c : Thread nD τ).loc main_arg4))
abbrev aWc (c : Dev nD) : Mat 1024 4 := (m ((c : Thread nD τ).loc main_arg5))
abbrev abc (c : Dev nD) : Row 4 := (m ((c : Thread nD τ).loc main_arg6))
abbrev aWr (c : Dev nD) : Mat 1024 12 := (m ((c : Thread nD τ).loc main_arg7))
abbrev abr (c : Dev nD) : Row 12 := (m ((c : Thread nD τ).loc main_arg8))

/-- Columns 0 … 3 of the side-by-side matrix are the class matrix. -/
theorem w3_left (c : Dev nD) (k : Fin 1024) (j : Fin 4) (hj : 0 + j.val < 16) :
    (V m c main_v3 : Mat 1024 16) (ix2 k ⟨0 + j.val, hj⟩) = aWc m c (ix2 k j) := by
  rw [V_w3]
  exact concat_cols_apply (K := 1024) (N := 16) [⟨S1024x4, aWc m c⟩, ⟨S1024x12, aWr m c⟩] concatenates_S1024x4_S1024x12_S1024x16_d1 0 Nat.zero_lt_two (aWc m c) rfl 0 rfl k j hj

/-- Columns 4 … 15 are the box matrix. -/
theorem w3_right (c : Dev nD) (k : Fin 1024) (j : Fin 12) (hj : 4 + j.val < 16) :
    (V m c main_v3 : Mat 1024 16) (ix2 k ⟨4 + j.val, hj⟩) = aWr m c (ix2 k j) := by
  rw [V_w3]
  exact concat_cols_apply (K := 1024) (N := 16) [⟨S1024x4, aWc m c⟩, ⟨S1024x12, aWr m c⟩] concatenates_S1024x4_S1024x12_S1024x16_d1 1 Nat.one_lt_two (aWr m c) rfl 4 rfl k j hj

/-- Entries 0 … 3 of the end-to-end bias row are the class bias. -/
theorem b3_left (c : Dev nD) (j : Fin 4) (hj : 0 + j.val < 16) :
    (V m c main_v7 : Mat 1 16) (ix2 (0 : Fin 1) ⟨0 + j.val, hj⟩) = abc m c (ix1 j) := by
  rw [V_b3, row_of_vec_apply]
  exact concat_vec_apply (N := 16) [⟨S4, abc m c⟩, ⟨S12, abr m c⟩] concatenates_S4_S12_S16_d0 0 Nat.zero_lt_two (abc m c) rfl 0 rfl j hj

/-- Entries 4 … 15 are the box bias. -/
theorem b3_right (c : Dev nD) (j : Fin 12) (hj : 4 + j.val < 16) :
    (V m c main_v7 : Mat 1 16) (ix2 (0 : Fin 1) ⟨4 + j.val, hj⟩) = abr m c (ix1 j) := by
  rw [V_b3, row_of_vec_apply]
  exact concat_vec_apply (N := 16) [⟨S4, abc m c⟩, ⟨S12, abr m c⟩] concatenates_S4_S12_S16_d0 1 Nat.one_lt_two (abr m c) rfl 4 rfl j hj

/-- The result over the argument arrays, the last matrix and bias still as the region finds them. -/
theorem result_eq (c : Dev nD) :
    result m c = head (mm (aX m c) (aW1 m c)) (rowOf (ab1 m c)) (aW2 m c) (rowOf (ab2 m c)) (V m c main_v3) (V m c main_v7) := by
  have e0 : Xa m c = aX m c := V_main_arg0 m c
  have e1 : W1a m c = aW1 m c := V_w1 m c
  have e2 : (V m c main_v4 : Mat 1 1024) = rowOf (ab1 m c) := (V_b1 m c).trans (shapeCast_row (ab1 m c) _)
  have e3 : (V m c main_v1 : Mat 1024 1024) = aW2 m c := V_w2 m c
  have e4 : (V m c main_v5 : Mat 1 1024) = rowOf (ab2 m c) := (V_b2 m c).trans (shapeCast_row (ab2 m c) _)
  unfold result
  rw [e0, e1, e2, e3, e4]

/-- Columns 0 … 3 of the result: the head with the class matrix and bias. -/
theorem logits_slice (c : Dev nD) :
    extractStridedSlice S8192x4 ![0, 0] (result m c) slices_S8192x16_S8192x4_0_0
      = head (mm (aX m c) (aW1 m c)) (rowOf (ab1 m c)) (aW2 m c) (rowOf (ab2 m c)) (aWc m c) (rowOf (abc m c)) := by
  rw [result_eq]
  exact slice_head (M := 8192) (O := 16) (O' := 4) (mm (aX m c) (aW1 m c)) (rowOf (ab1 m c)) (aW2 m c) (rowOf (ab2 m c))
    (V m c main_v3) (V m c main_v7) (aWc m c) (abc m c) 0 (fun j => by have := j.isLt; omega) slices_S8192x16_S8192x4_0_0
    (fun k j => w3_left m c k j _) (fun j => b3_left m c j _)

/-- Columns 4 … 15 of the result: the head with the box matrix and bias. -/
theorem boxes_slice (c : Dev nD) :
    extractStridedSlice S8192x12 ![0, 4] (result m c) slices_S8192x16_S8192x12_0_4
      = head (mm (aX m c) (aW1 m c)) (rowOf (ab1 m c)) (aW2 m c) (rowOf (ab2 m c)) (aWr m c) (rowOf (abr m c)) := by
  rw [result_eq]
  exact slice_head (M := 8192) (O := 16) (O' := 12) (mm (aX m c) (aW1 m c)) (rowOf (ab1 m c)) (aW2 m c) (rowOf (ab2 m c))
    (V m c main_v3) (V m c main_v7) (aWr m c) (abr m c) 4 (fun j => by have := j.isLt; omega) slices_S8192x16_S8192x12_0_4
    (fun k j => w3_right m c k j _) (fun j => b3_right m c j _)

end Cert.KernelIdeal.BoxValue

end
-- ==== Proof.RefSide.lean ====
/-
  The reference's two results on the extended reals.

  The reference computes max(max(X·W1 + b1, 0)·W2 + b2, 0) once and applies two affine heads to it. Its products
  are general dot products with one contracted axis, its biases are broadcast first to one row and then over the
  rows, and its rectifier is the maximum with a broadcast zero: each result is the head of the specification with
  that head's weight matrix and bias.
-/
import proofs.«156846_j60997125537856_2_alg».proof.Proof.Gen.ReferenceIdeal.Run
import proofs.«156846_j60997125537856_2_alg».proof.Proof.LibAccumHead

noncomputable section

open scoped BigOperators

namespace Cert.ReferenceIdeal.RefValue

open Cert.ReferenceIdeal Cert.ReferenceIdeal.Gen Cert.Dense Cert.Gcn Cert.Fused Cert.BoxHead
open Idealize.ShloMosaic Idealize.ShloMosaic.ValueIdx

/-- The host's spelling of the head, generic in the sizes. -/
theorem host_head_form {M K H H2 O : ℕ} (X : FVec Ideal ⟨2, ![M, K]⟩ .f32) (W1 : FVec Ideal ⟨2, ![K, H]⟩ .f32)
    (b1 : FVec Ideal ⟨1, ![H]⟩ .f32) (W2 : FVec Ideal ⟨2, ![H, H2]⟩ .f32) (b2 : FVec Ideal ⟨1, ![H2]⟩ .f32)
    (W3 : FVec Ideal ⟨2, ![H2, O]⟩ .f32) (b3 : FVec Ideal ⟨1, ![O]⟩ .f32)
    (h1 : (⟨1, ![H]⟩ : Shape).BroadcastsInDim ⟨2, ![1, H]⟩ ![1])
    (h2 : (⟨2, ![1, H]⟩ : Shape).BroadcastsInDim ⟨2, ![M, H]⟩ ![0, 1])
    (h0 : (⟨0, ![]⟩ : Shape).BroadcastsInDim ⟨2, ![M, H]⟩ ![])
    (g1 : (⟨1, ![H2]⟩ : Shape).BroadcastsInDim ⟨2, ![1, H2]⟩ ![1])
    (g2 : (⟨2, ![1, H2]⟩ : Shape).BroadcastsInDim ⟨2, ![M, H2]⟩ ![0, 1])
    (g0 : (⟨0, ![]⟩ : Shape).BroadcastsInDim ⟨2, ![M, H2]⟩ ![])
    (k1 : (⟨1, ![O]⟩ : Shape).BroadcastsInDim ⟨2, ![1, O]⟩ ![1])
    (k2 : (⟨2, ![1, O]⟩ : Shape).BroadcastsInDim ⟨2, ![M, O]⟩ ![0, 1]) :
    addf (Host.dotGeneral (F := Ideal) (DotDims.plain M H2 O) none
        (maximumf (addf (Host.dotGeneral (F := Ideal) (DotDims.plain M H H2) none
            (maximumf (addf (Host.dotGeneral (F := Ideal) (DotDims.plain M K H) none X W1)
                (broadcastInDim ⟨2, ![M, H]⟩ ![0, 1] h2 (broadcastInDim ⟨2, ![1, H]⟩ ![1] h1 b1)))
              (broadcastInDim ⟨2, ![M, H]⟩ ![] h0 (constant (F := Ideal) ⟨0, ![]⟩ .f32 0x00000000#32))) W2)
            (broadcastInDim ⟨2, ![M, H2]⟩ ![0, 1] g2 (broadcastInDim ⟨2, ![1, H2]⟩ ![1] g1 b2)))
          (broadcastInDim ⟨2, ![M, H2]⟩ ![] g0 (constant (F := Ideal) ⟨0, ![]⟩ .f32 0x00000000#32))) W3)
      (broadcastInDim ⟨2, ![M, O]⟩ ![0, 1] k2 (broadcastInDim ⟨2, ![1, O]⟩ ![1] k1 b3))
      = head (mm X W1) (rowOf b1) W2 (rowOf b2) W3 (rowOf b3) := by
  rw [dotGeneral_plain X W1, host_actMm (mm X W1) b1 W2 h1 h2 h0, host_actMmBias _ b2 W3 b3 g1 g2 g0 k1 k2]
  rfl

/-- The class logits. -/
theorem logits_eq (a0 : FVec Ideal S8192x12544 .f32) (a1 : FVec Ideal S12544x1024 .f32) (a2 : FVec Ideal S1024 .f32)
    (a3 : FVec Ideal S1024x1024 .f32) (a4 : FVec Ideal S1024 .f32) (a5 : FVec Ideal S1024x4 .f32) (a6 : FVec Ideal S4 .f32) :
    addf (Host.dotGeneral (F := Ideal) dot_S8192x1024_S1024x4_S8192x4_1_0_0_1_n_n none (maximumf (addf (Host.dotGeneral (F := Ideal) dot_S8192x1024_S1024x1024_S8192x1024_1_0_0_1_n_n none (maximumf (addf (Host.dotGeneral (F := Ideal) dot_S8192x12544_S12544x1024_S8192x1024_1_0_0_1_n_n none a0 a1) (broadcastInDim S8192x1024 ![0, 1] bcast_S1x1024_S8192x1024_0_1 (broadcastInDim S1x1024 ![1] bcast_S1024_S1x1024_1 a2))) (broadcastInDim S8192x1024 ![] bcast_S_S8192x1024 (constant (F := Ideal) S_ .f32 0x00000000#32))) a3) (broadcastInDim S8192x1024 ![0, 1] bcast_S1x1024_S8192x1024_0_1 (broadcastInDim S1x1024 ![1] bcast_S1024_S1x1024_1 a4))) (broadcastInDim S8192x1024 ![] bcast_S_S8192x1024 (constant (F := Ideal) S_ .f32 0x00000000#32))) a5) (broadcastInDim S8192x4 ![0, 1] bcast_S1x4_S8192x4_0_1 (broadcastInDim S1x4 ![1] bcast_S4_S1x4_1 a6))
      = head (M := 8192) (H := 1024) (H2 := 1024) (O := 4) (mm (M := 8192) (K := 12544) (N := 1024) a0 a1) (rowOf a2) a3 (rowOf a4) a5 (rowOf a6) :=
  host_head_form (M := 8192) (K := 12544) (H := 1024) (H2 := 1024) (O := 4) a0 a1 a2 a3 a4 a5 a6 _ _ _ _ _ _ _ _

/-- The box deltas. -/
theorem boxes_eq (a0 : FVec Ideal S8192x12544 .f32) (a1 : FVec Ideal S12544x1024 .f32) (a2 : FVec Ideal S1024 .f32)
    (a3 : FVec Ideal S1024x1024 .f32) (a4 : FVec Ideal S1024 .f32) (a7 : FVec Ideal S1024x12 .f32) (a8 : FVec Ideal S12 .f32) :
    addf (Host.dotGeneral (F := Ideal) dot_S8192x1024_S1024x12_S8192x12_1_0_0_1_n_n none (maximumf (addf (Host.dotGeneral (F := Ideal) dot_S8192x1024_S1024x1024_S8192x1024_1_0_0_1_n_n none (maximumf (addf (Host.dotGeneral (F := Ideal) dot_S8192x12544_S12544x1024_S8192x1024_1_0_0_1_n_n none a0 a1) (broadcastInDim S8192x1024 ![0, 1] bcast_S1x1024_S8192x1024_0_1 (broadcastInDim S1x1024 ![1] bcast_S1024_S1x1024_1 a2))) (broadcastInDim S8192x1024 ![] bcast_S_S8192x1024 (constant (F := Ideal) S_ .f32 0x00000000#32))) a3) (broadcastInDim S8192x1024 ![0, 1] bcast_S1x1024_S8192x1024_0_1 (broadcastInDim S1x1024 ![1] bcast_S1024_S1x1024_1 a4))) (broadcastInDim S8192x1024 ![] bcast_S_S8192x1024 (constant (F := Ideal) S_ .f32 0x00000000#32))) a7) (broadcastInDim S8192x12 ![0, 1] bcast_S1x12_S8192x12_0_1 (broadcastInDim S1x12 ![1] bcast_S12_S1x12_1 a8))
      = head (M := 8192) (H := 1024) (H2 := 1024) (O := 12) (mm (M := 8192) (K := 12544) (N := 1024) a0 a1) (rowOf a2) a3 (rowOf a4) a7 (rowOf a8) :=
  host_head_form (M := 8192) (K := 12544) (H := 1024) (H2 := 1024) (O := 12) a0 a1 a2 a3 a4 a7 a8 _ _ _ _ _ _ _ _

end Cert.ReferenceIdeal.RefValue

end
-- ==== Proof.lean ====
/-
  A box head: two rectified affine layers and an affine head, out = max(max(X·W1 + b1, 0)·W2 + b2, 0)·W3 + b3,
  the head's matrix W3 = [Wc | Wr] and bias b3 = [bc, br] serving the class logits (columns 0 … 3) and the box
  deltas (columns 4 … 15).

  The kernel sweeps each tile of 512 rows over the contracted axis of X·W1 in 7 stretches of 1792, adding each
  stretch's product into an accumulator, and at the tile's last stretch applies the rest of the network to the
  accumulator and stores the 512 × 16 block; the program then slices the two groups of columns. The reference
  computes the whole products and applies the two heads separately. On the extended reals the two agree entry by
  entry: a change of float format is the identity; the accumulated stretches add up to the whole sum over the
  contracted axis (a finite sum in a commutative monoid, regrouped; nothing is asked of the entries); an entry of
  the head reads its own row of X·W1 only, so the tiles' heads are the rows of the whole head; and a column of the
  head reads that column of W3 and that entry of b3 only, so each slice is the head with its own matrix and bias.
  The precondition is never opened.

  The three frames: the kernel's two are the generated frame certificates, the reference's is its generated run
  with the results dropped. The idealization rewrote nothing.
-/
import proofs.«156846_j60997125537856_2_alg».proof.Defs
import proofs.«156846_j60997125537856_2_alg».proof.Proof.Gen.Kernel
import proofs.«156846_j60997125537856_2_alg».proof.Proof.Gen.Kernel.Skeleton
import proofs.«156846_j60997125537856_2_alg».proof.Proof.Gen.Kernel.Launch
import proofs.«156846_j60997125537856_2_alg».proof.Proof.Gen.Kernel.Points
import proofs.«156846_j60997125537856_2_alg».proof.Proof.Gen.Kernel.Frame
import proofs.«156846_j60997125537856_2_alg».proof.Proof.Gen.KernelIdeal
import proofs.«156846_j60997125537856_2_alg».proof.Proof.Gen.KernelIdeal.Skeleton
import proofs.«156846_j60997125537856_2_alg».proof.Proof.Gen.KernelIdeal.Launch
import proofs.«156846_j60997125537856_2_alg».proof.Proof.Gen.KernelIdeal.Points
import proofs.«156846_j60997125537856_2_alg».proof.Proof.Gen.KernelIdeal.Frame
import proofs.«156846_j60997125537856_2_alg».proof.Proof.Gen.ReferenceIdeal
import proofs.«156846_j60997125537856_2_alg».proof.Proof.Gen.ReferenceIdeal.Run
import proofs.«156846_j60997125537856_2_alg».proof.Proof.Gen.Pre_finite_inputs
import proofs.«156846_j60997125537856_2_alg».proof.Proof.Final
import proofs.«156846_j60997125537856_2_alg».proof.Proof.Bridge
import proofs.«156846_j60997125537856_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the class logits at columns 0 … 3 and the box deltas at columns 4 … 15 of the head of
    X·W1: the kernel's results are those slices of the array its region leaves, the reference's are the heads with
    the class and the box matrix, and each slice is that head. -/
theorem algebraic : Cert.algebraic_KernelIdeal_ReferenceIdeal := by
  intro m ρ m' ρ' _ hagree
  refine ⟨_, _, Cert.KernelIdeal.BoxValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1, (hagree c).2.2.2.2.2.2.1]
    exact (Cert.ReferenceIdeal.RefValue.logits_eq _ _ _ _ _ _ _).trans (Cert.KernelIdeal.BoxValue.logits_slice m c).symm
  · rw [(hagree c).1, (hagree c).2.1, (hagree c).2.2.1, (hagree c).2.2.2.1, (hagree c).2.2.2.2.1, (hagree c).2.2.2.2.2.2.2.1, (hagree c).2.2.2.2.2.2.2.2]
    exact (Cert.ReferenceIdeal.RefValue.boxes_eq _ _ _ _ _ _ _).trans (Cert.KernelIdeal.BoxValue.boxes_slice m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
